-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_
  bcast_S_S800000 : S_.BroadcastsInDim S800000 (![] : Fin 0 → Fin S800000.rank)
  reducesTo_S800000_S_d0 : S800000.ReducesTo [0] S_

variable [Facts]

def fn_part2 {F : FTy → Type} [FloatOps F] (main_arg2 : IVec S800000 32) (main_v33 : IVec S_ 1) : IVec S_ 1 :=
  let main_c_12 : IVec S_ 32 := constantI S_ 32 0#32
  let main_v34 : IVec S800000 32 := broadcastInDim S800000 ![] bcast_S_S800000 main_c_12
  let main_v35 : IVec S800000 1 := cmpi .sge main_arg2 main_v34
  let main_c_13 : IVec S_ 1 := constantI S_ 1 1#1
  let main_v36 : IVec S_ 1 := (fun x v => Host.reduce IntOp.andi x v reducesTo_S800000_S_d0 h_S_) main_v35 main_c_13
  let main_v37 : IVec S_ 1 := andi main_v33 main_v36
  main_v37

def fn_part1 {F : FTy → Type} [FloatOps F] (main_arg2 : IVec S800000 32) (main_arg6 : FVec F S128 .f32) (main_arg7 : FVec F S128x40 .f32) (main_arg8 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x40 .f32 := Host.absf main_arg7
  let main_cst_8 : FVec F S_ .f32 := constant S_ .f32 0x7F800000#32
  let main_v25 : FVec F S128x40 .f32 := broadcastInDim S128x40 ![] bcast_S_S128x40 main_cst_8
  let main_v26 : IVec S128x40 1 := cmpf .olt main_v24 main_v25
  let main_c_9 : IVec S_ 1 := constantI S_ 1 1#1
  let main_v27 : IVec S_ 1 := (fun x v => Host.reduce IntOp.andi x v reducesTo_S128x40_S_d0_1 h_S_) main_v26 main_c_9
  let main_v28 : IVec S_ 1 := andi main_v23 main_v27
  let main_v29 : FVec F S40 .f32 := Host.absf main_arg8
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  fn_part2 (F := F) main_arg2 main_v33

def fn {F : FTy → Type} [FloatOps F] (main_arg0 : FVec F S50000x128 .f32) (main_arg1 : IVec S800000 32) (main_arg2 : IVec S800000 32) (main_arg3 : FVec F S128x128 .f32) (main_arg4 : FVec F S128 .f32) (main_arg5 : FVec F S128x128 .f32) (main_arg6 : FVec F S128 .f32) (main_arg7 : FVec F S128x40 .f32) (main_arg8 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg2 main_arg6 main_arg7 main_arg8 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S5000x128 : Shape := ⟨2, ![5000, 128]⟩
abbrev S50000 : Shape := ⟨1, ![50000]⟩
abbrev S50000x1 : Shape := ⟨2, ![50000, 1]⟩
abbrev S1x40 : Shape := ⟨2, ![1, 40]⟩
abbrev S50000x40 : Shape := ⟨2, ![50000, 40]⟩
abbrev S5000x1 : Shape := ⟨2, ![5000, 1]⟩
abbrev S5000x40 : Shape := ⟨2, ![5000, 40]⟩

abbrev nBuf : Space → Nat
  | .hbm => 77
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x40, .f32⟩
  | .hbm, ⟨8, _⟩ => ⟨S40, .f32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x128, .f32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S50000x128, .f32⟩
  | .hbm, ⟨27, _⟩ => ⟨S1x128, .f32⟩
  | .hbm, ⟨28, _⟩ => ⟨S50000x128, .f32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000x128, .f32⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S50000x128, .f32⟩
  | .hbm, ⟨47, _⟩ => ⟨S1x128, .f32⟩
  | .hbm, ⟨48, _⟩ => ⟨S50000x128, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x128, .f32⟩
  | .hbm, ⟨58, _⟩ => ⟨S_, .f32⟩
  | .hbm, ⟨59, _⟩ => ⟨S50000x128, .f32⟩
  | .hbm, ⟨60, _⟩ => ⟨S800000x1, .i32⟩
  | .hbm, ⟨61, _⟩ => ⟨S50000x128, .f32⟩
  | .hbm, ⟨62, _⟩ => ⟨S_, .f32⟩
  | .hbm, ⟨63, _⟩ => ⟨S800000, .f32⟩
  | .hbm, ⟨64, _⟩ => ⟨S_, .f32⟩
  | .hbm, ⟨65, _⟩ => ⟨S50000, .f32⟩
  | .hbm, ⟨66, _⟩ => ⟨S800000x1, .i32⟩
  | .hbm, ⟨67, _⟩ => ⟨S50000, .f32⟩
  | .hbm, ⟨68, _⟩ => ⟨S_, .f32⟩
  | .hbm, ⟨69, _⟩ => ⟨S50000, .f32⟩
  | .hbm, ⟨70, _⟩ => ⟨S50000, .f32⟩
  | .hbm, ⟨71, _⟩ => ⟨S_, .f32⟩
  | .hbm, ⟨72, _⟩ => ⟨S50000, .f32⟩
  | .hbm, ⟨73, _⟩ => ⟨S50000, .f32⟩
  | .hbm, ⟨74, _⟩ => ⟨S50000x1, .f32⟩
  | .hbm, ⟨75, _⟩ => ⟨S1x40, .f32⟩
  | .hbm, ⟨76, _⟩ => ⟨S50000x40, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x1, .f32⟩
  | .local _ .vmem, ⟨17, _⟩ => ⟨S5000x1, .f32⟩
  | .local _ .vmem, ⟨18, _⟩ => ⟨S128x40, .f32⟩
  | .local _ .vmem, ⟨19, _⟩ => ⟨S1x40, .f32⟩
  | .local _ .vmem, ⟨20, _⟩ => ⟨S5000x40, .f32⟩
  | .local _ .vmem, ⟨21, _⟩ => ⟨S5000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c_3 : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_c_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_9 : Ref sig .tc := ⟨.hbm, 62, rfl⟩
abbrev main_v42 : Ref sig .tc := ⟨.hbm, 63, rfl⟩
abbrev main_cst_10 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_11 : Ref sig .tc := ⟨.hbm, 68, rfl⟩
abbrev main_v46 : Ref sig .tc := ⟨.hbm, 69, rfl⟩
abbrev main_v47 : Ref sig .tc := ⟨.hbm, 70, rfl⟩
abbrev main_cst_12 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg5_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem4_0 : DmaSem sig := 19
abbrev cc2_sem5_0 : DmaSem sig := 20
abbrev cc2_sem5_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x40 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x40 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x40 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  shapeCasts_S40_S1x40 : S40.ShapeCasts S1x40
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  scatter_S50000_S800000x1_S800000_n_0_0_1_wf : ScatterDims.WF S50000 S800000x1 S800000 [] [0] [0] 1
  dot_S5000x128_S128x40_S5000x40_1_0_0_1_n_n_wf : DotDims.WF S5000x128 S128x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x40.size a ≤ S128x40.size a
  hwx2_3 : ∀ i : grid2.Coords, EltTy.bits .f32 = 32 ∨ (Rect.block (s := S128x40) S128x40.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x40.size a ≤ S1x40.size a
  hwx2_4 : ∀ i : grid2.Coords, EltTy.bits .f32 = 32 ∨ (Rect.block (s := S1x40) S1x40.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x40.size a ≤ S50000x40.size a
  hwx2_5 : ∀ i : grid2.Coords, EltTy.bits .f32 = 32 ∨ (Rect.block (s := S50000x40) S5000x40.size (cc2_transform_5 i) (hinb2_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf

abbrev win0_0 : Pipeline.Window sig grid0 :=
  Pipeline.Window.ofSpec (Memref.whole main_v13) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v29) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v30) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v31) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v41) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v50) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S128x40.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v51) S1x40.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v52) S5000x40.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S50000 : Shape := ⟨1, ![50000]⟩
abbrev S50000x1 : Shape := ⟨2, ![50000, 1]⟩
abbrev S50000x40 : Shape := ⟨2, ![50000, 40]⟩
abbrev S1x40 : Shape := ⟨2, ![1, 40]⟩

abbrev nBuf : Space → Nat
  | .hbm => 81
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x40, .f32⟩
  | .hbm, ⟨8, _⟩ => ⟨S40, .f32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x128, .f32⟩
  | .hbm, ⟨18, _⟩ => ⟨S_, .f32⟩
  | .hbm, ⟨19, _⟩ => ⟨S50000x128, .f32⟩
  | .hbm, ⟨20, _⟩ => ⟨S800000x1, .i32⟩
  | .hbm, ⟨21, _⟩ => ⟨S50000x128, .f32⟩
  | .hbm, ⟨22, _⟩ => ⟨S50000x128, .f32⟩
  | .hbm, ⟨23, _⟩ => ⟨S50000x128, .f32⟩
  | .hbm, ⟨24, _⟩ => ⟨S1x128, .f32⟩
  | .hbm, ⟨25, _⟩ => ⟨S50000x128, .f32⟩
  | .hbm, ⟨26, _⟩ => ⟨S50000x128, .f32⟩
  | .hbm, ⟨27, _⟩ => ⟨S_, .f32⟩
  | .hbm, ⟨28, _⟩ => ⟨S50000x128, .f32⟩
  | .hbm, ⟨29, _⟩ => ⟨S50000x128, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000x128, .f32⟩
  | .hbm, ⟨39, _⟩ => ⟨S_, .f32⟩
  | .hbm, ⟨40, _⟩ => ⟨S50000x128, .f32⟩
  | .hbm, ⟨41, _⟩ => ⟨S800000x1, .i32⟩
  | .hbm, ⟨42, _⟩ => ⟨S50000x128, .f32⟩
  | .hbm, ⟨43, _⟩ => ⟨S50000x128, .f32⟩
  | .hbm, ⟨44, _⟩ => ⟨S50000x128, .f32⟩
  | .hbm, ⟨45, _⟩ => ⟨S1x128, .f32⟩
  | .hbm, ⟨46, _⟩ => ⟨S50000x128, .f32⟩
  | .hbm, ⟨47, _⟩ => ⟨S50000x128, .f32⟩
  | .hbm, ⟨48, _⟩ => ⟨S_, .f32⟩
  | .hbm, ⟨49, _⟩ => ⟨S50000x128, .f32⟩
  | .hbm, ⟨50, _⟩ => ⟨S50000x128, .f32⟩
  | .hbm, ⟨51, _⟩ => ⟨S_, .f32⟩
  | .hbm, ⟨52, _⟩ => ⟨S800000, .f32⟩
  | .hbm, ⟨53, _⟩ => ⟨S_, .f32⟩
  | .hbm, ⟨54, _⟩ => ⟨S50000, .f32⟩
  | .hbm, ⟨55, _⟩ => ⟨S800000x1, .i32⟩
  | .hbm, ⟨56, _⟩ => ⟨S50000, .f32⟩
  | .hbm, ⟨57, _⟩ => ⟨S_, .i32⟩
  | .hbm, ⟨58, _⟩ => ⟨S800000, .i32⟩
  | .hbm, ⟨59, _⟩ => ⟨S800000, .i1⟩
  | .hbm, ⟨60, _⟩ => ⟨S_, .i32⟩
  | .hbm, ⟨61, _⟩ => ⟨S800000, .i32⟩
  | .hbm, ⟨62, _⟩ => ⟨S800000, .i32⟩
  | .hbm, ⟨63, _⟩ => ⟨S800000, .i32⟩
  | .hbm, ⟨64, _⟩ => ⟨S800000x1, .i32⟩
  | .hbm, ⟨65, _⟩ => ⟨S800000x128, .f32⟩
  | .hbm, ⟨66, _⟩ => ⟨S_, .f32⟩
  | .hbm, ⟨67, _⟩ => ⟨S50000x128, .f32⟩
  | .hbm, ⟨68, _⟩ => ⟨S800000x1, .i32⟩
  | .hbm, ⟨69, _⟩ => ⟨S50000x128, .f32⟩
  | .hbm, ⟨70, _⟩ => ⟨S_, .f32⟩
  | .hbm, ⟨71, _⟩ => ⟨S50000, .f32⟩
  | .hbm, ⟨72, _⟩ => ⟨S50000, .f32⟩
  | .hbm, ⟨73, _⟩ => ⟨S50000x1, .f32⟩
  | .hbm, ⟨74, _⟩ => ⟨S50000x128, .f32⟩
  | .hbm, ⟨75, _⟩ => ⟨S50000x128, .f32⟩
  | .hbm, ⟨76, _⟩ => ⟨S50000x128, .f32⟩
  | .hbm, ⟨77, _⟩ => ⟨S50000x40, .f32⟩
  | .hbm, ⟨78, _⟩ => ⟨S1x40, .f32⟩
  | .hbm, ⟨79, _⟩ => ⟨S50000x40, .f32⟩
  | .hbm, ⟨80, _⟩ => ⟨S50000x40, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_call0_cst : Ref sig .tc := ⟨.hbm, 27, rfl⟩
abbrev main_call0_v0 : Ref sig .tc := ⟨.hbm, 28, rfl⟩
abbrev main_v15 : Ref sig .tc := ⟨.hbm, 29, rfl⟩
abbrev main_c_1 : Ref sig .tc := ⟨.hbm, 30, rfl⟩
abbrev main_v16 : Ref sig .tc := ⟨.hbm, 31, rfl⟩
abbrev main_v17 : Ref sig .tc := ⟨.hbm, 32, rfl⟩
abbrev main_c_2 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_3 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_call1_cst : Ref sig .tc := ⟨.hbm, 48, rfl⟩
abbrev main_call1_v0 : Ref sig .tc := ⟨.hbm, 49, rfl⟩
abbrev main_v31 : Ref sig .tc := ⟨.hbm, 50, rfl⟩
abbrev main_cst_4 : Ref sig .tc := ⟨.hbm, 51, rfl⟩
abbrev main_v32 : Ref sig .tc := ⟨.hbm, 52, rfl⟩
abbrev main_cst_5 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_6 : Ref sig .tc := ⟨.hbm, 57, rfl⟩
abbrev main_v36 : Ref sig .tc := ⟨.hbm, 58, rfl⟩
abbrev main_v37 : Ref sig .tc := ⟨.hbm, 59, rfl⟩
abbrev main_c_7 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_8 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_9 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  scatter_S50000_S800000x1_S800000_n_0_0_1_wf : ScatterDims.WF S50000 S800000x1 S800000 [] [0] [0] 1
  dot_S50000x128_S128x40_S50000x40_1_0_0_1_n_n_wf : DotDims.WF S50000x128 S128x40 S50000x40 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf

class Facts : Prop extends Facts₀ where

variable [Facts]
-- ==== Proof.RunOut.lean ====
/-
  The idealized kernel program's run, with the result array named.

  The program is six stretches in a row: host operations, a grid of ten row blocks through the first dense map,
  host operations, the second grid, host operations, the third grid.  The contents of every buffer at each
  boundary are a fold from the launch memory (`Gen.W0` … `Gen.W6`).  Every weakly fair execution ends with each
  unscoped buffer at the last boundary's contents; here that is read at the result array as well as at the nine
  argument arrays, which end as launched.
-/
import proofs.«132324_j12936441496234_2_alg».proof.Proof.Gen.KernelIdeal.Frame

set_option maxRecDepth 16384

noncomputable section

namespace Cert.KernelIdeal.RunOut

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result array ends at the last boundary's
    contents and the arguments end as launched. -/
theorem run : θ_run defs (onTc (τ := τ) (main (F := F))) ⟨m, fun _ => 0, ρ⟩ (fun r => ∀ c : Dev nD,
      r.2.mem ((c.tc : Thread nD τ).loc main_v52) = W6 m ρ c (Proc.devRef .tc main_v52)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v52 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c)⟩)

end Cert.KernelIdeal.RunOut

end
-- ==== Proof.Spec.lean ====
/-
  The mathematics both programs compute, as functions of whole arrays over the extended reals.

  A graph layer here is: gather the source rows of the edge list, add them onto their destination rows, and
  push every row through an affine map.  The affine map of one row is written once, `lin128` / `lin40`:
  entry (r, q) is the sum over k of a(r, k) · w(k, q), started from 0, plus the bias of column q.  `layer` clamps
  it below at 0; `out40` is the last, unclamped, 40-column map.  `mix` is the last layer's input row: the
  node's own row plus its neighbour sum scaled by a per-row factor.
-/
import Idealize.ShloMosaic.PureOps.Ideal
import Idealize.ShloMosaic.Lib.ValueIdx

noncomputable section

namespace Cert.Gin

open Idealize.ShloMosaic Idealize.ShloMosaic.ValueIdx

abbrev Nodes128 : Shape := ⟨2, ![50000, 128]⟩
abbrev Nodes40 : Shape := ⟨2, ![50000, 40]⟩
abbrev Nodes1 : Shape := ⟨2, ![50000, 1]⟩
abbrev W128 : Shape := ⟨2, ![128, 128]⟩
abbrev W40 : Shape := ⟨2, ![128, 40]⟩

/-- Row `r` of `a` against column `q` of `w`, the sum started from zero, plus the bias of column `q`. -/
def lin128 (a : Nodes128.Idx → EReal) (w : W128.Idx → EReal) (bq : Fin 128 → EReal) (r : Fin 50000) (q : Fin 128) : EReal :=
  (0 + ∑ k : Fin 128, a (ix2 r k) * w (ix2 k q)) + bq q

/-- The same against a 128 × 40 matrix. -/
def lin40 (a : Nodes128.Idx → EReal) (w : W40.Idx → EReal) (bq : Fin 40 → EReal) (r : Fin 50000) (q : Fin 40) : EReal :=
  (0 + ∑ k : Fin 128, a (ix2 r k) * w (ix2 k q)) + bq q

/-- A hidden layer's affine map clamped below at zero, entry by entry. -/
def layer (a : Nodes128.Idx → EReal) (w : W128.Idx → EReal) (bq : Fin 128 → EReal) : Nodes128.Idx → EReal :=
  fun i => max (lin128 a w bq (i 0) (i 1)) 0

/-- The output layer's affine map, entry by entry. -/
def out40 (a : Nodes128.Idx → EReal) (w : W40.Idx → EReal) (bq : Fin 40 → EReal) : Nodes40.Idx → EReal :=
  fun i => lin40 a w bq (i 0) (i 1)

/-- The output layer's input: a node's row plus its neighbour sum times the node's own factor. -/
def mix (h agg : Nodes128.Idx → EReal) (f : Fin 50000 → EReal) : Nodes128.Idx → EReal :=
  fun i => h i + agg i * f (i 0)

end Cert.Gin

end
-- ==== Proof.HostRead.lean ====
/-
  What the kernel program's three stretches of host operations leave in the buffers the grids read, as functions
  of the buffer contents the stretch starts from.

  Before each hidden grid the host gathers, for every edge, the source node's row, and adds it onto the
  destination node's row of the features themselves; an index below zero is first shifted up by the node count.
  Before the last grid it gathers the same way but accumulates onto zeros with the destination indices as given,
  counts each node's incoming edges by accumulating ones, and forms one over the larger of that count and one.
  The bias vectors are re-laid as one-row matrices.
-/
import proofs.«132324_j12936441496234_2_alg».proof.Proof.Gen.KernelIdeal.Launch
import Idealize.ShloMosaic.Lib.StableHlo.Run

set_option maxRecDepth 16384

noncomputable section

namespace Cert.KernelIdeal.HostRead

open Cert.KernelIdeal Cert.KernelIdeal.Gen
open Idealize.ShloMosaic Idealize.ShloMosaic.TcCoe Idealize.SL.Sem Idealize.ShloMosaic.StableHlo

variable {F : FTy → Type} [FloatOps F]

/-- An edge endpoint below zero is shifted up by the number of nodes. -/
def shifted (x : IVec S800000 32) : IVec S800000 32 :=
  select (cmpi .slt x (broadcastInDim S800000 ![] bcast_S_S800000 (constantI S_ 32 0#32)))
    (addi x (broadcastInDim S800000 ![] bcast_S_S800000 (constantI S_ 32 50000#32))) x

/-- An index vector as a one-column matrix. -/
def column (x : IVec S800000 32) : IVec S800000x1 32 := broadcastInDim S800000x1 ![0] bcast_S800000_S800000x1_0 x

/-- Per edge, the row of `h` at the edge's (shifted) source. -/
def gathered (h : FVec F S50000x128 .f32) (s : IVec S800000 32) : FVec F S800000x128 .f32 :=
  Host.gather gather_S50000x128_S800000x1_S800000x128_1_0_n_n_0_1_1128 h (column (shifted s))

/-- The features with every edge's source row added onto its (shifted) destination row. -/
def selfSummed (h : FVec F S50000x128 .f32) (s d : IVec S800000 32) : FVec F S50000x128 .f32 :=
  Host.scatterAdd scatter_S50000x128_S800000x1_S800000x128_1_0_0_1 h (column (shifted d)) (gathered h s)

/-- The neighbour sums alone: the source rows accumulated onto zeros at the destinations as given. -/
def neighbourSum (h : FVec F S50000x128 .f32) (s d : IVec S800000 32) : FVec F S50000x128 .f32 :=
  Host.scatterAdd scatter_S50000x128_S800000x1_S800000x128_1_0_0_1
    (broadcastInDim S50000x128 ![] bcast_S_S50000x128 (constant S_ .f32 0x00000000#32)) (column d) (gathered h s)

/-- Each node's number of incoming edges: ones accumulated onto zeros at the destinations. -/
def inDegree (d : IVec S800000 32) : FVec F S50000 .f32 :=
  Host.scatterAdd scatter_S50000_S800000x1_S800000_n_0_0_1
    (broadcastInDim S50000 ![] bcast_S_S50000 (constant S_ .f32 0x00000000#32)) (column d)
    (broadcastInDim S800000 ![] bcast_S_S800000 (constant S_ .f32 0x3F800000#32))

/-- One over the larger of the in-degree and one, as a one-column matrix. -/
def invDegree (d : IVec S800000 32) : FVec F S50000x1 .f32 :=
  broadcastInDim S50000x1 ![0] bcast_S50000_S50000x1_0
    (Host.divf (broadcastInDim S50000 ![] bcast_S_S50000 (constant S_ .f32 0x3F800000#32))
      (maximumf (inDegree (F := F) d) (broadcastInDim S50000 ![] bcast_S_S50000 (constant S_ .f32 0x3F800000#32))))

variable (W : Valuation τ sig (Elt F))

/-! ## The first stretch -/

theorem first_summed : after (hostOps0 (F := F)) W (Proc.devRef .tc main_v13)
    = selfSummed (W (Proc.devRef .tc main_arg0)) (W (Proc.devRef .tc main_arg1)) (W (Proc.devRef .tc main_arg2)) := by
  unfold selfSummed gathered column shifted
  after_results_simp
theorem first_bias : after (hostOps0 (F := F)) W (Proc.devRef .tc main_v14)
    = shapeCast S1x128 (W (Proc.devRef .tc main_arg4)) shapeCasts_S128_S1x128 := by
  after_results; rfl
theorem first_weights : after (hostOps0 (F := F)) W (Proc.devRef .tc main_arg3) = W (Proc.devRef .tc main_arg3) := by
  after_results
theorem first_keeps_arg (b : Ref sig .tc) (hb : b = main_arg1 ∨ b = main_arg2 ∨ b = main_arg5 ∨ b = main_arg6 ∨ b = main_arg7 ∨ b = main_arg8) :
    after (hostOps0 (F := F)) W (Proc.devRef .tc b) = W (Proc.devRef .tc b) := by
  rcases hb with rfl | rfl | rfl | rfl | rfl | rfl <;> after_results

/-! ## The second stretch -/

theorem second_summed : after (hostOps1 (F := F)) W (Proc.devRef .tc main_v29)
    = selfSummed (W (Proc.devRef .tc main_v15)) (W (Proc.devRef .tc main_arg1)) (W (Proc.devRef .tc main_arg2)) := by
  unfold selfSummed gathered column shifted
  after_results_simp
theorem second_bias : after (hostOps1 (F := F)) W (Proc.devRef .tc main_v30)
    = shapeCast S1x128 (W (Proc.devRef .tc main_arg6)) shapeCasts_S128_S1x128 := by
  after_results; rfl
theorem second_weights : after (hostOps1 (F := F)) W (Proc.devRef .tc main_arg5) = W (Proc.devRef .tc main_arg5) := by
  after_results
theorem second_keeps_arg (b : Ref sig .tc) (hb : b = main_arg1 ∨ b = main_arg2 ∨ b = main_arg7 ∨ b = main_arg8) :
    after (hostOps1 (F := F)) W (Proc.devRef .tc b) = W (Proc.devRef .tc b) := by
  rcases hb with rfl | rfl | rfl | rfl <;> after_results

/-! ## The third stretch -/

theorem third_features : after (hostOps2 (F := F)) W (Proc.devRef .tc main_v31) = W (Proc.devRef .tc main_v31) := by
  after_results
theorem third_neighbours : after (hostOps2 (F := F)) W (Proc.devRef .tc main_v41)
    = neighbourSum (W (Proc.devRef .tc main_v31)) (W (Proc.devRef .tc main_arg1)) (W (Proc.devRef .tc main_arg2)) := by
  after_results; rfl
theorem third_factor : after (hostOps2 (F := F)) W (Proc.devRef .tc main_v50) = invDegree (F := F) (W (Proc.devRef .tc main_arg2)) := by
  after_results; rfl
theorem third_bias : after (hostOps2 (F := F)) W (Proc.devRef .tc main_v51)
    = shapeCast S1x40 (W (Proc.devRef .tc main_arg8)) shapeCasts_S40_S1x40 := by
  after_results; rfl
theorem third_weights : after (hostOps2 (F := F)) W (Proc.devRef .tc main_arg7) = W (Proc.devRef .tc main_arg7) := by
  after_results

end Cert.KernelIdeal.HostRead

end
-- ==== Proof.Payload.lean ====
/-
  What the three kernel bodies compute at one entry of their output block, read at the ideal instance
  (a float an extended real, a change of format the identity).

  Each payload is one pure term. Read at the entry (p, q):
  • the shape casts to the same shape are the identity and the narrowing to bf16 is the identity on extended reals;
  • the matrix product into the zero accumulator is the sum over the one contracted axis k of lhs (p, k) * rhs (k, q);
  • the bias, a single row broadcast over all rows, contributes its entry (0, q);
  • the first two bodies then take the maximum with the splat 0;
  • the third body's left operand is first formed as v0 + v2 * (the column v4 broadcast along the rows), whose entry
    (p, k) is v0 (p, k) + v2 (p, k) * v4 (p, 0).
-/
import proofs.«132324_j12936441496234_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-! ## The matrix product into the zero accumulator, read at an entry -/

/-- Off the contracted axis, the left operand's index keeps the output row … -/
theorem mm128_lhs0 (i : S5000x128.Idx) (c : dot_S5000x128_S128x128_S5000x128_1_0_0_1_n_n.contr.Idx) :
    (dot_S5000x128_S128x128_S5000x128_1_0_0_1_n_n.lhsIdx i c 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
/-- … on it, the contraction position's one coordinate; … -/
theorem mm128_lhs1 (i : S5000x128.Idx) (c : dot_S5000x128_S128x128_S5000x128_1_0_0_1_n_n.contr.Idx) :
    (dot_S5000x128_S128x128_S5000x128_1_0_0_1_n_n.lhsIdx i c 1).val = (c ⟨0, by decide⟩).val :=
  dot_S5000x128_S128x128_S5000x128_1_0_0_1_n_n.lhsIdx_val_of_single rfl i c
/-- … the right operand's index has the contraction coordinate on its rows … -/
theorem mm128_rhs0 (i : S5000x128.Idx) (c : dot_S5000x128_S128x128_S5000x128_1_0_0_1_n_n.contr.Idx) :
    (dot_S5000x128_S128x128_S5000x128_1_0_0_1_n_n.rhsIdx i c 0).val = (c ⟨0, by decide⟩).val :=
  dot_S5000x128_S128x128_S5000x128_1_0_0_1_n_n.rhsIdx_val_of_single rfl i c
/-- … and keeps the output column. -/
theorem mm128_rhs1 (i : S5000x128.Idx) (c : dot_S5000x128_S128x128_S5000x128_1_0_0_1_n_n.contr.Idx) :
    (dot_S5000x128_S128x128_S5000x128_1_0_0_1_n_n.rhsIdx i c 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The [5000,128] × [128,128] product into the zero accumulator, at (p, q): the sum over the contracted axis. -/
theorem mm128_at (A : FVec Ideal S5000x128 .bf16) (B : FVec Ideal S128x128 .bf16) (p : Fin 5000) (q : Fin 128) :
    matmul dot_S5000x128_S128x128_S5000x128_1_0_0_1_n_n none A B (constant S5000x128 .f32 0x00000000#32) (ix2 p q)
      = ∑ k : Fin 128, A (ix2 p k) * B (ix2 k q) := by
  refine (Ideal.matmul_constant_zero_apply dot_S5000x128_S128x128_S5000x128_1_0_0_1_n_n none A B (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k :=
    funext fun a => Fin.ext (by
      match a with
      | ⟨0, _⟩ => exact mm128_lhs0 _ _
      | ⟨1, _⟩ => exact (mm128_lhs1 _ _).trans hk)
  have er : dot_S5000x128_S128x128_S5000x128_1_0_0_1_n_n.rhsIdx (ix2 p q) ((contrEquiv1 dot_S5000x128_S128x128_S5000x128_1_0_0_1_n_n 128 rfl rfl).symm k) = ix2 k q :=
    funext fun a => Fin.ext (by
      match a with
      | ⟨0, _⟩ => exact (mm128_rhs0 _ _).trans hk
      | ⟨1, _⟩ => exact mm128_rhs1 _ _)
  rw [el, er]

/-- Off the contracted axis, the left operand's index keeps the output row … -/
theorem mm40_lhs0 (i : S5000x40.Idx) (c : dot_S5000x128_S128x40_S5000x40_1_0_0_1_n_n.contr.Idx) :
    (dot_S5000x128_S128x40_S5000x40_1_0_0_1_n_n.lhsIdx i c 0).val = (i 0).val := by
  unfold DotDims.lhsIdx
  rw [dif_neg (show ¬(0 : Fin S5000x128.rank) ∈ dot_S5000x128_S128x40_S5000x40_1_0_0_1_n_n.lhsBatch by decide),
    dif_pos (show (0 : Fin S5000x128.rank) ∈ dot_S5000x128_S128x40_S5000x40_1_0_0_1_n_n.lhsNonContracting by decide)]
  rfl
/-- … on it, the contraction position's one coordinate; … -/
theorem mm40_lhs1 (i : S5000x40.Idx) (c : dot_S5000x128_S128x40_S5000x40_1_0_0_1_n_n.contr.Idx) :
    (dot_S5000x128_S128x40_S5000x40_1_0_0_1_n_n.lhsIdx i c 1).val = (c ⟨0, by decide⟩).val :=
  dot_S5000x128_S128x40_S5000x40_1_0_0_1_n_n.lhsIdx_val_of_single rfl i c
/-- … the right operand's index has the contraction coordinate on its rows … -/
theorem mm40_rhs0 (i : S5000x40.Idx) (c : dot_S5000x128_S128x40_S5000x40_1_0_0_1_n_n.contr.Idx) :
    (dot_S5000x128_S128x40_S5000x40_1_0_0_1_n_n.rhsIdx i c 0).val = (c ⟨0, by decide⟩).val :=
  dot_S5000x128_S128x40_S5000x40_1_0_0_1_n_n.rhsIdx_val_of_single rfl i c
/-- … and keeps the output column. -/
theorem mm40_rhs1 (i : S5000x40.Idx) (c : dot_S5000x128_S128x40_S5000x40_1_0_0_1_n_n.contr.Idx) :
    (dot_S5000x128_S128x40_S5000x40_1_0_0_1_n_n.rhsIdx i c 1).val = (i 1).val := by
  unfold DotDims.rhsIdx
  rw [dif_neg (show ¬(1 : Fin S128x40.rank) ∈ dot_S5000x128_S128x40_S5000x40_1_0_0_1_n_n.rhsBatch by decide),
    dif_pos (show (1 : Fin S128x40.rank) ∈ dot_S5000x128_S128x40_S5000x40_1_0_0_1_n_n.rhsNonContracting by decide)]
  rfl

/-- The [5000,128] × [128,40] product into the zero accumulator, at (p, q): the sum over the contracted axis. -/
theorem mm40_at (A : FVec Ideal S5000x128 .bf16) (B : FVec Ideal S128x40 .bf16) (p : Fin 5000) (q : Fin 40) :
    matmul dot_S5000x128_S128x40_S5000x40_1_0_0_1_n_n none A B (constant S5000x40 .f32 0x00000000#32) (ix2 p q)
      = ∑ k : Fin 128, A (ix2 p k) * B (ix2 k q) := by
  refine (Ideal.matmul_constant_zero_apply dot_S5000x128_S128x40_S5000x40_1_0_0_1_n_n none A B (ix2 p q)).trans ?_
  rw [← Equiv.sum_comp (contrEquiv1 dot_S5000x128_S128x40_S5000x40_1_0_0_1_n_n 128 rfl rfl).symm]
  refine Finset.sum_congr rfl fun k _ => ?_
  have hk := contrEquiv1_symm_val dot_S5000x128_S128x40_S5000x40_1_0_0_1_n_n 128 rfl rfl k
  have el : dot_S5000x128_S128x40_S5000x40_1_0_0_1_n_n.lhsIdx (ix2 p q) ((contrEquiv1 dot_S5000x128_S128x40_S5000x40_1_0_0_1_n_n 128 rfl rfl).symm k) = ix2 p k :=
    funext fun a => Fin.ext (by
      match a with
      | ⟨0, _⟩ => exact mm40_lhs0 _ _
      | ⟨1, _⟩ => exact (mm40_lhs1 _ _).trans hk)
  have er : dot_S5000x128_S128x40_S5000x40_1_0_0_1_n_n.rhsIdx (ix2 p q) ((contrEquiv1 dot_S5000x128_S128x40_S5000x40_1_0_0_1_n_n 128 rfl rfl).symm k) = ix2 k q :=
    funext fun a => Fin.ext (by
      match a with
      | ⟨0, _⟩ => exact (mm40_rhs0 _ _).trans hk
      | ⟨1, _⟩ => exact mm40_rhs1 _ _)
  rw [el, er]

/-! ## The bodies at an entry -/

/-- A column broadcast along the rows: an [a, 1] array broadcast to [a, b] reads, at (p, c), the operand's entry (p, 0). -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The first layer's body at (p, q): the rectified affine map of row p of the block. -/
theorem pay0_at (x0 : Vec Ideal S5000x128 .f32) (x1 : Vec Ideal S128x128 .f32) (x2 : Vec Ideal S1x128 .f32)
    (p : Fin 5000) (q : Fin 128) :
    k0_pay1 x0 x1 x2 (ix2 p q) = max ((0 + ∑ k : Fin 128, x0 (ix2 p k) * x1 (ix2 k q)) + x2 (ix2 0 q)) 0 := by
  unfold k0_pay1
  rw [shapeCast_self, shapeCast_self]
  refine (maximumf_apply _ _ _).trans ?_
  rw [broadcast_apply, addf_apply, mm128_at, broadcastTo_1b_ab_apply]
  rw [zero_add]
  exact congrArg (max _) Ideal.ofBits_zero_f32

/-- The second layer's body at (p, q): the same rectified affine map. -/
theorem pay1_at (x0 : Vec Ideal S5000x128 .f32) (x1 : Vec Ideal S128x128 .f32) (x2 : Vec Ideal S1x128 .f32)
    (p : Fin 5000) (q : Fin 128) :
    k1_pay1 x0 x1 x2 (ix2 p q) = max ((0 + ∑ k : Fin 128, x0 (ix2 p k) * x1 (ix2 k q)) + x2 (ix2 0 q)) 0 := by
  unfold k1_pay1
  rw [shapeCast_self, shapeCast_self]
  refine (maximumf_apply _ _ _).trans ?_
  rw [broadcast_apply, addf_apply, mm128_at, broadcastTo_1b_ab_apply, zero_add]
  exact congrArg (max _) Ideal.ofBits_zero_f32

/-- The third layer's body at (p, q): the affine map of row p of v0 + v2 * (the column v4 along the rows). -/
theorem pay2_at (x0 x1 : Vec Ideal S5000x128 .f32) (x2 : Vec Ideal S5000x1 .f32) (x3 : Vec Ideal S128x40 .f32)
    (x4 : Vec Ideal S1x40 .f32) (p : Fin 5000) (q : Fin 40) :
    k2_pay1 x0 x1 x2 x3 x4 (ix2 p q)
      = (0 + ∑ k : Fin 128, (x0 (ix2 p k) + x1 (ix2 p k) * x2 (ix2 p 0)) * x3 (ix2 k q)) + x4 (ix2 0 q) := by
  unfold k2_pay1
  rw [shapeCast_self, shapeCast_self, shapeCast_self, shapeCast_self]
  refine (addf_apply _ _ _).trans ?_
  rw [mm40_at, broadcastTo_1b_ab_apply, zero_add]
  refine congrArg (· + x4 (ix2 0 q)) (Finset.sum_congr rfl fun k _ => ?_)
  refine congrArg (· * x3 (ix2 k q)) ?_
  refine (addf_apply _ _ _).trans ?_
  refine congrArg (x0 (ix2 p k) + ·) ?_
  refine (mulf_apply _ _ _).trans ?_
  exact congrArg (x1 (ix2 p k) * ·) (broadcastTo_a1_ab_apply x2 _ p k)

end Cert.KernelIdeal.Payload

end
-- ==== Proof.Dense0.lean ====
/-
  Dense map number 1 of the kernel program, as one function of the arrays its grid finds.

  The grid has ten points; point t reads rows 5000·t … 5000·t + 4999 of the summed features, the whole weight
  matrix and the whole bias row, and writes the same rows of the result.  What it writes at (5000·t + p, q) is the
  clamped affine map of row 5000·t + p, which depends on that row alone; so the ten blocks are the ten row bands of
  ONE whole-array function, `Cert.Gin.layer` of the three arrays, and the bands cover the array.
-/
import proofs.«132324_j12936441496234_2_alg».proof.Proof.Gen.KernelIdeal.Frame
import proofs.«132324_j12936441496234_2_alg».proof.Proof.Spec
import proofs.«132324_j12936441496234_2_alg».proof.Proof.Payload
import Idealize.ShloMosaic.Lib.Pipeline.Value
import Idealize.ShloMosaic.Lib.ValueIdx

set_option maxRecDepth 16384

noncomputable section

namespace Cert.KernelIdeal.Dense0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-- The whole-array function the region's result array ends holding. -/
def result (c : Dev nD) : Cert.Gin.Nodes128.Idx → EReal :=
  Cert.Gin.layer (V c main_v13) (V c main_arg3) (fun q => V c main_v14 (ix2 0 q))

/-- Which block each window shows at point `t`: the features and the result move down one row band per point, the
    weights and the bias stay. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- One entry of one point's block: if the three loaded blocks are the row band `tv` of `A`, all of `W` and all
    of the bias row, the body's value at (p, q) is the clamped affine map of row 5000·tv + p at column q. -/
theorem entry (A : Cert.Gin.Nodes128.Idx → EReal) (W : Cert.Gin.W128.Idx → EReal) (B2 : S1x128.Idx → EReal)
    (x0 : Vec Ideal S5000x128 .f32) (x1 : Vec Ideal S128x128 .f32) (x2 : Vec Ideal S1x128 .f32)
    (tv : Nat) (p : Fin 5000) (q : Fin 128) (hr : tv * 5000 + p.val < 50000)
    (h0 : ∀ k : Fin 128, x0 (ix2 p k) = A (ix2 ⟨tv * 5000 + p.val, hr⟩ k))
    (h1 : ∀ k : Fin 128, x1 (ix2 k q) = W (ix2 k q)) (h2 : x2 (ix2 0 q) = B2 (ix2 0 q)) :
    k0_pay1 x0 x1 x2 (ix2 p q) = Cert.Gin.layer A W (fun q => B2 (ix2 0 q)) (ix2 ⟨tv * 5000 + p.val, hr⟩ q) := by
  rw [Cert.KernelIdeal.Payload.pay0_at]
  show _ = max (Cert.Gin.lin128 A W (fun q => B2 (ix2 0 q)) ⟨tv * 5000 + p.val, hr⟩ q) 0
  unfold Cert.Gin.lin128
  rw [h2]
  simp only [h0, h1]

/-- What point `t` writes back is row band `t` of the whole-array function. -/
theorem flushed_eq (c : Dev nD) (t : Fin cfg0.N) :
    (dat0 V c).flushed 3 t = ((cfg0.win 3).blk t).view.read (Elt Ideal) (result V c) := by
  show (cfg0.win 3).cut (grid0.coords t) ((dat0 V c).after 3 t) = _
  rw [after0_3]
  unfold out0_3
  rw [View.canon_unit_zero zero_offsets]
  simp only [View.ld_unit_zero (S := S5000x128) zero_offsets, View.ld_unit_zero (S := S128x128) zero_offsets,
    View.ld_unit_zero (S := S1x128) zero_offsets]
  obtain ⟨e0, e1, e2, e3, e4, e5, e6, e7⟩ := block_indices t
  have ht : t.val < 10 := by have := t.isLt; have hN : cfg0.N = 10 := N_0; omega
  funext j
  obtain ⟨p, q, rfl⟩ : ∃ (p : Fin 5000) (q : Fin 128), j = ix2 p q := ⟨j 0, j 1, eq_ix2 j⟩
  have hr : t.val * 5000 + p.val < 50000 := by have := p.isLt; omega
  have hemb : ((cfg0.win 3).blk t).view.emb (ix2 p q) = ix2 ⟨t.val * 5000 + p.val, hr⟩ q := by
    funext a; apply Fin.ext
    match a with
    | ⟨0, _⟩ => show win0_3.index t (0 : Fin 2) * 5000 + 1 * p.val = t.val * 5000 + p.val; omega
    | ⟨1, _⟩ => show win0_3.index t (1 : Fin 2) * 128 + 1 * q.val = q.val; omega
  show k0_pay1 (iblk0 V c 0 t) (iblk0 V c 1 t) (iblk0 V c 2 t) (ix2 p q) = result V c (((cfg0.win 3).blk t).view.emb (ix2 p q))
  rw [hemb]
  refine entry (V c main_v13) (V c main_arg3) (V c main_v14) _ _ _ t.val p q hr (fun k => ?_) (fun k => ?_) ?_
  · show V c main_v13 (((cfg0.win 0).blk t).view.emb (ix2 p k)) = V c main_v13 (ix2 ⟨t.val * 5000 + p.val, hr⟩ k)
    refine congrArg _ (funext fun a => Fin.ext ?_)
    match a with
    | ⟨0, _⟩ => show win0_0.index t (0 : Fin 2) * 5000 + 1 * p.val = t.val * 5000 + p.val; omega
    | ⟨1, _⟩ => show win0_0.index t (1 : Fin 2) * 128 + 1 * k.val = k.val; omega
  · show V c main_arg3 (((cfg0.win 1).blk t).view.emb (ix2 k q)) = V c main_arg3 (ix2 k q)
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * q.val = q.val; omega
  · show V c main_v14 (((cfg0.win 2).blk t).view.emb (ix2 0 q)) = V c main_v14 (ix2 0 q)
    refine congrArg _ (funext fun a => Fin.ext ?_)
    match a with
    | ⟨0, _⟩ => show win0_2.index t (0 : Fin 2) * 1 + 1 * 0 = 0; omega
    | ⟨1, _⟩ => show win0_2.index t (1 : Fin 2) * 128 + 1 * q.val = q.val; omega

/-- An index of the result array is in point `t`'s block iff each coordinate is in the block's range. -/
theorem mem_block (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v15).slice (win0_3.rect t)).set ↔ _
  rw [View.set_slice_whole, Rect.mem_set_unit]
  exact Iff.rfl

/-- The ten row bands cover the array: row r lies in band r / 5000. -/
theorem covered (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 10 := N_0
  refine ⟨⟨(i 0).val / 5000, by rw [hN]; omega⟩, flush0_3 _, ?_⟩
  rw [mem_block]
  obtain ⟨e0, e1, e2, e3, e4, e5, e6, e7⟩ := block_indices ⟨(i 0).val / 5000, by rw [hN]; omega⟩
  intro a
  match a with
  | ⟨0, _⟩ =>
    show win0_3.index _ (0 : Fin 2) * 5000 ≤ (i 0).val ∧ (i 0).val < win0_3.index _ (0 : Fin 2) * 5000 + 5000
    rw [e6]; show (i 0).val / 5000 * 5000 ≤ (i 0).val ∧ (i 0).val < (i 0).val / 5000 * 5000 + 5000; omega
  | ⟨1, _⟩ =>
    show win0_3.index _ (1 : Fin 2) * 128 ≤ (i 1).val ∧ (i 1).val < win0_3.index _ (1 : Fin 2) * 128 + 128
    rw [e7]; omega

/-- The result array after the grid is the whole-array function of the arrays the grid found. -/
theorem final (c : Dev nD) : (dat0 V c).arrAt 3 cfg0.N = result V c :=
  (dat0 V c).arrAt_eq_of_cover 3 (result V c) (fun t _ => flushed_eq V c t) (covered)

end Cert.KernelIdeal.Dense0

end
-- ==== Proof.Dense1.lean ====
/-
  Dense map number 2 of the kernel program, as one function of the arrays its grid finds.

  The grid has ten points; point t reads rows 5000·t … 5000·t + 4999 of the summed features, the whole weight
  matrix and the whole bias row, and writes the same rows of the result.  What it writes at (5000·t + p, q) is the
  clamped affine map of row 5000·t + p, which depends on that row alone; so the ten blocks are the ten row bands of
  ONE whole-array function, `Cert.Gin.layer` of the three arrays, and the bands cover the array.
-/
import proofs.«132324_j12936441496234_2_alg».proof.Proof.Gen.KernelIdeal.Frame
import proofs.«132324_j12936441496234_2_alg».proof.Proof.Spec
import proofs.«132324_j12936441496234_2_alg».proof.Proof.Payload
import Idealize.ShloMosaic.Lib.Pipeline.Value
import Idealize.ShloMosaic.Lib.ValueIdx

set_option maxRecDepth 16384

noncomputable section

namespace Cert.KernelIdeal.Dense1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-- The whole-array function the region's result array ends holding. -/
def result (c : Dev nD) : Cert.Gin.Nodes128.Idx → EReal :=
  Cert.Gin.layer (V c main_v29) (V c main_arg5) (fun q => V c main_v30 (ix2 0 q))

/-- Which block each window shows at point `t`: the features and the result move down one row band per point, the
    weights and the bias stay. -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- One entry of one point's block: if the three loaded blocks are the row band `tv` of `A`, all of `W` and all
    of the bias row, the body's value at (p, q) is the clamped affine map of row 5000·tv + p at column q. -/
theorem entry (A : Cert.Gin.Nodes128.Idx → EReal) (W : Cert.Gin.W128.Idx → EReal) (B2 : S1x128.Idx → EReal)
    (x0 : Vec Ideal S5000x128 .f32) (x1 : Vec Ideal S128x128 .f32) (x2 : Vec Ideal S1x128 .f32)
    (tv : Nat) (p : Fin 5000) (q : Fin 128) (hr : tv * 5000 + p.val < 50000)
    (h0 : ∀ k : Fin 128, x0 (ix2 p k) = A (ix2 ⟨tv * 5000 + p.val, hr⟩ k))
    (h1 : ∀ k : Fin 128, x1 (ix2 k q) = W (ix2 k q)) (h2 : x2 (ix2 0 q) = B2 (ix2 0 q)) :
    k1_pay1 x0 x1 x2 (ix2 p q) = Cert.Gin.layer A W (fun q => B2 (ix2 0 q)) (ix2 ⟨tv * 5000 + p.val, hr⟩ q) := by
  rw [Cert.KernelIdeal.Payload.pay1_at]
  show _ = max (Cert.Gin.lin128 A W (fun q => B2 (ix2 0 q)) ⟨tv * 5000 + p.val, hr⟩ q) 0
  unfold Cert.Gin.lin128
  rw [h2]
  simp only [h0, h1]

/-- What point `t` writes back is row band `t` of the whole-array function. -/
theorem flushed_eq (c : Dev nD) (t : Fin cfg1.N) :
    (dat1 V c).flushed 3 t = ((cfg1.win 3).blk t).view.read (Elt Ideal) (result V c) := by
  show (cfg1.win 3).cut (grid1.coords t) ((dat1 V c).after 3 t) = _
  rw [after1_3]
  unfold out1_3
  rw [View.canon_unit_zero zero_offsets]
  simp only [View.ld_unit_zero (S := S5000x128) zero_offsets, View.ld_unit_zero (S := S128x128) zero_offsets,
    View.ld_unit_zero (S := S1x128) zero_offsets]
  obtain ⟨e0, e1, e2, e3, e4, e5, e6, e7⟩ := block_indices t
  have ht : t.val < 10 := by have := t.isLt; have hN : cfg1.N = 10 := N_1; omega
  funext j
  obtain ⟨p, q, rfl⟩ : ∃ (p : Fin 5000) (q : Fin 128), j = ix2 p q := ⟨j 0, j 1, eq_ix2 j⟩
  have hr : t.val * 5000 + p.val < 50000 := by have := p.isLt; omega
  have hemb : ((cfg1.win 3).blk t).view.emb (ix2 p q) = ix2 ⟨t.val * 5000 + p.val, hr⟩ q := by
    funext a; apply Fin.ext
    match a with
    | ⟨0, _⟩ => show win1_3.index t (0 : Fin 2) * 5000 + 1 * p.val = t.val * 5000 + p.val; omega
    | ⟨1, _⟩ => show win1_3.index t (1 : Fin 2) * 128 + 1 * q.val = q.val; omega
  show k1_pay1 (iblk1 V c 0 t) (iblk1 V c 1 t) (iblk1 V c 2 t) (ix2 p q) = result V c (((cfg1.win 3).blk t).view.emb (ix2 p q))
  rw [hemb]
  refine entry (V c main_v29) (V c main_arg5) (V c main_v30) _ _ _ t.val p q hr (fun k => ?_) (fun k => ?_) ?_
  · show V c main_v29 (((cfg1.win 0).blk t).view.emb (ix2 p k)) = V c main_v29 (ix2 ⟨t.val * 5000 + p.val, hr⟩ k)
    refine congrArg _ (funext fun a => Fin.ext ?_)
    match a with
    | ⟨0, _⟩ => show win1_0.index t (0 : Fin 2) * 5000 + 1 * p.val = t.val * 5000 + p.val; omega
    | ⟨1, _⟩ => show win1_0.index t (1 : Fin 2) * 128 + 1 * k.val = k.val; omega
  · show V c main_arg5 (((cfg1.win 1).blk t).view.emb (ix2 k q)) = V c main_arg5 (ix2 k q)
    refine congrArg _ (funext fun a => Fin.ext ?_)
    match a with
    | ⟨0, _⟩ => show win1_1.index t (0 : Fin 2) * 128 + 1 * k.val = k.val; omega
    | ⟨1, _⟩ => show win1_1.index t (1 : Fin 2) * 128 + 1 * q.val = q.val; omega
  · show V c main_v30 (((cfg1.win 2).blk t).view.emb (ix2 0 q)) = V c main_v30 (ix2 0 q)
    refine congrArg _ (funext fun a => Fin.ext ?_)
    match a with
    | ⟨0, _⟩ => show win1_2.index t (0 : Fin 2) * 1 + 1 * 0 = 0; omega
    | ⟨1, _⟩ => show win1_2.index t (1 : Fin 2) * 128 + 1 * q.val = q.val; omega

/-- An index of the result array is in point `t`'s block iff each coordinate is in the block's range. -/
theorem mem_block (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v31).slice (win1_3.rect t)).set ↔ _
  rw [View.set_slice_whole, Rect.mem_set_unit]
  exact Iff.rfl

/-- The ten row bands cover the array: row r lies in band r / 5000. -/
theorem covered (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have hN : cfg1.N = 10 := N_1
  refine ⟨⟨(i 0).val / 5000, by rw [hN]; omega⟩, flush1_3 _, ?_⟩
  rw [mem_block]
  obtain ⟨e0, e1, e2, e3, e4, e5, e6, e7⟩ := block_indices ⟨(i 0).val / 5000, by rw [hN]; omega⟩
  intro a
  match a with
  | ⟨0, _⟩ =>
    show win1_3.index _ (0 : Fin 2) * 5000 ≤ (i 0).val ∧ (i 0).val < win1_3.index _ (0 : Fin 2) * 5000 + 5000
    rw [e6]; show (i 0).val / 5000 * 5000 ≤ (i 0).val ∧ (i 0).val < (i 0).val / 5000 * 5000 + 5000; omega
  | ⟨1, _⟩ =>
    show win1_3.index _ (1 : Fin 2) * 128 ≤ (i 1).val ∧ (i 1).val < win1_3.index _ (1 : Fin 2) * 128 + 128
    rw [e7]; omega

/-- The result array after the grid is the whole-array function of the arrays the grid found. -/
theorem final (c : Dev nD) : (dat1 V c).arrAt 3 cfg1.N = result V c :=
  (dat1 V c).arrAt_eq_of_cover 3 (result V c) (fun t _ => flushed_eq V c t) (covered)

end Cert.KernelIdeal.Dense1

end
-- ==== Proof.Dense2.lean ====
/-
  The output map of the kernel program, as one function of the arrays its grid finds.

  The grid has ten points; point t reads rows 5000·t … 5000·t + 4999 of the hidden features, of the neighbour
  sums and of the per-node factor, the whole 128 × 40 weight matrix and the whole bias row, and writes the same
  rows of the result.  At (5000·t + p, q) it writes the affine map of the mixed row — the node's features plus its
  neighbour sum times its factor — which depends on row 5000·t + p alone; so the ten blocks are the row bands of ONE
  whole-array function, `Cert.Gin.out40` of `Cert.Gin.mix`, and the bands cover the array.
-/
import proofs.«132324_j12936441496234_2_alg».proof.Proof.Gen.KernelIdeal.Frame
import proofs.«132324_j12936441496234_2_alg».proof.Proof.Spec
import proofs.«132324_j12936441496234_2_alg».proof.Proof.Payload
import Idealize.ShloMosaic.Lib.Pipeline.Value
import Idealize.ShloMosaic.Lib.ValueIdx

set_option maxRecDepth 16384

noncomputable section

namespace Cert.KernelIdeal.Dense2

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-- The whole-array function the region's result array ends holding. -/
def result (c : Dev nD) : Cert.Gin.Nodes40.Idx → EReal :=
  Cert.Gin.out40 (Cert.Gin.mix (V c main_v31) (V c main_v41) (fun r => V c main_v50 (ix2 r 0))) (V c main_arg7)
    (fun q => V c main_v51 (ix2 0 q))

/-- Which block each window shows at point `t`: the three node-indexed inputs and the result move down one row
    band per point, the weights and the bias stay. -/
theorem block_indices : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- One entry of one point's block: if the loaded blocks are the row band `tv` of the features, of the neighbour
    sums and of the factor, all of `W` and all of the bias row, the body's value at (p, q) is the affine map of the
    mixed row 5000·tv + p at column q. -/
theorem entry (H A : Cert.Gin.Nodes128.Idx → EReal) (D1 : Cert.Gin.Nodes1.Idx → EReal) (W : Cert.Gin.W40.Idx → EReal) (B2 : S1x40.Idx → EReal)
    (x0 x1 : Vec Ideal S5000x128 .f32) (x2 : Vec Ideal S5000x1 .f32) (x3 : Vec Ideal S128x40 .f32) (x4 : Vec Ideal S1x40 .f32)
    (tv : Nat) (p : Fin 5000) (q : Fin 40) (hr : tv * 5000 + p.val < 50000)
    (h0 : ∀ k : Fin 128, x0 (ix2 p k) = H (ix2 ⟨tv * 5000 + p.val, hr⟩ k))
    (h1 : ∀ k : Fin 128, x1 (ix2 p k) = A (ix2 ⟨tv * 5000 + p.val, hr⟩ k))
    (h2 : x2 (ix2 p 0) = D1 (ix2 ⟨tv * 5000 + p.val, hr⟩ 0))
    (h3 : ∀ k : Fin 128, x3 (ix2 k q) = W (ix2 k q)) (h4 : x4 (ix2 0 q) = B2 (ix2 0 q)) :
    k2_pay1 x0 x1 x2 x3 x4 (ix2 p q)
      = Cert.Gin.out40 (Cert.Gin.mix H A (fun r => D1 (ix2 r 0))) W (fun q => B2 (ix2 0 q)) (ix2 ⟨tv * 5000 + p.val, hr⟩ q) := by
  rw [Cert.KernelIdeal.Payload.pay2_at]
  show _ = (0 + ∑ k : Fin 128, (H (ix2 ⟨tv * 5000 + p.val, hr⟩ k) + A (ix2 ⟨tv * 5000 + p.val, hr⟩ k) * D1 (ix2 ⟨tv * 5000 + p.val, hr⟩ 0)) * W (ix2 k q)) + B2 (ix2 0 q)
  rw [h2, h4]
  simp only [h0, h1, h3]

/-- What point `t` writes back is row band `t` of the whole-array function. -/
theorem flushed_eq (c : Dev nD) (t : Fin cfg2.N) :
    (dat2 V c).flushed 5 t = ((cfg2.win 5).blk t).view.read (Elt Ideal) (result V c) := by
  show (cfg2.win 5).cut (grid2.coords t) ((dat2 V c).after 5 t) = _
  rw [after2_5]
  unfold out2_5
  rw [View.canon_unit_zero zero_offsets]
  simp only [View.ld_unit_zero (S := S5000x128) zero_offsets, View.ld_unit_zero (S := S5000x1) zero_offsets,
    View.ld_unit_zero (S := S128x40) zero_offsets, View.ld_unit_zero (S := S1x40) zero_offsets]
  obtain ⟨e0, e1, e2, e3, e4, e5, e6, e7, e8, e9, e10, e11⟩ := block_indices t
  have ht : t.val < 10 := by have := t.isLt; have hN : cfg2.N = 10 := N_2; omega
  funext j
  obtain ⟨p, q, rfl⟩ : ∃ (p : Fin 5000) (q : Fin 40), j = ix2 p q := ⟨j 0, j 1, eq_ix2 j⟩
  have hr : t.val * 5000 + p.val < 50000 := by have := p.isLt; omega
  have hemb : ((cfg2.win 5).blk t).view.emb (ix2 p q) = ix2 ⟨t.val * 5000 + p.val, hr⟩ q := by
    funext a; apply Fin.ext
    match a with
    | ⟨0, _⟩ => show win2_5.index t (0 : Fin 2) * 5000 + 1 * p.val = t.val * 5000 + p.val; omega
    | ⟨1, _⟩ => show win2_5.index t (1 : Fin 2) * 40 + 1 * q.val = q.val; omega
  show k2_pay1 (iblk2 V c 0 t) (iblk2 V c 1 t) (iblk2 V c 2 t) (iblk2 V c 3 t) (iblk2 V c 4 t) (ix2 p q) = result V c (((cfg2.win 5).blk t).view.emb (ix2 p q))
  rw [hemb]
  refine entry (V c main_v31) (V c main_v41) (V c main_v50) (V c main_arg7) (V c main_v51) _ _ _ _ _ t.val p q hr
    (fun k => ?_) (fun k => ?_) ?_ (fun k => ?_) ?_
  · show V c main_v31 (((cfg2.win 0).blk t).view.emb (ix2 p k)) = V c main_v31 (ix2 ⟨t.val * 5000 + p.val, hr⟩ k)
    refine congrArg _ (funext fun a => Fin.ext ?_)
    match a with
    | ⟨0, _⟩ => show win2_0.index t (0 : Fin 2) * 5000 + 1 * p.val = t.val * 5000 + p.val; omega
    | ⟨1, _⟩ => show win2_0.index t (1 : Fin 2) * 128 + 1 * k.val = k.val; omega
  · show V c main_v41 (((cfg2.win 1).blk t).view.emb (ix2 p k)) = V c main_v41 (ix2 ⟨t.val * 5000 + p.val, hr⟩ k)
    refine congrArg _ (funext fun a => Fin.ext ?_)
    match a with
    | ⟨0, _⟩ => show win2_1.index t (0 : Fin 2) * 5000 + 1 * p.val = t.val * 5000 + p.val; omega
    | ⟨1, _⟩ => show win2_1.index t (1 : Fin 2) * 128 + 1 * k.val = k.val; omega
  · show V c main_v50 (((cfg2.win 2).blk t).view.emb (ix2 p 0)) = V c main_v50 (ix2 ⟨t.val * 5000 + p.val, hr⟩ 0)
    refine congrArg _ (funext fun a => Fin.ext ?_)
    match a with
    | ⟨0, _⟩ => show win2_2.index t (0 : Fin 2) * 5000 + 1 * p.val = t.val * 5000 + p.val; omega
    | ⟨1, _⟩ => show win2_2.index t (1 : Fin 2) * 1 + 1 * 0 = 0; omega
  · show V c main_arg7 (((cfg2.win 3).blk t).view.emb (ix2 k q)) = V c main_arg7 (ix2 k q)
    refine congrArg _ (funext fun a => Fin.ext ?_)
    match a with
    | ⟨0, _⟩ => show win2_3.index t (0 : Fin 2) * 128 + 1 * k.val = k.val; omega
    | ⟨1, _⟩ => show win2_3.index t (1 : Fin 2) * 40 + 1 * q.val = q.val; omega
  · show V c main_v51 (((cfg2.win 4).blk t).view.emb (ix2 0 q)) = V c main_v51 (ix2 0 q)
    refine congrArg _ (funext fun a => Fin.ext ?_)
    match a with
    | ⟨0, _⟩ => show win2_4.index t (0 : Fin 2) * 1 + 1 * 0 = 0; omega
    | ⟨1, _⟩ => show win2_4.index t (1 : Fin 2) * 40 + 1 * q.val = q.val; omega

/-- An index of the result array is in point `t`'s block iff each coordinate is in the block's range. -/
theorem mem_block (t : Fin cfg2.N) (i : S50000x40.Idx) :
    i ∈ ((cfg2.win 5).blk t).view.set ↔ ∀ a : Fin 2, win2_5.index t a * S5000x40.size a ≤ (i a).val ∧ (i a).val < win2_5.index t a * S5000x40.size a + S5000x40.size a := by
  show i ∈ ((View.whole main_v52).slice (win2_5.rect t)).set ↔ _
  rw [View.set_slice_whole, Rect.mem_set_unit]
  exact Iff.rfl

/-- The ten row bands cover the array: row r lies in band r / 5000. -/
theorem covered (i : S50000x40.Idx) :
    ∃ t : Fin cfg2.N, (cfg2.win 5).flush t = true ∧ i ∈ ((cfg2.win 5).blk t).view.set := by
  have hi0 : (i 0).val < 50000 := (i 0).isLt
  have hi1 : (i 1).val < 40 := (i 1).isLt
  have hN : cfg2.N = 10 := N_2
  refine ⟨⟨(i 0).val / 5000, by rw [hN]; omega⟩, flush2_5 _, ?_⟩
  rw [mem_block]
  obtain ⟨e0, e1, e2, e3, e4, e5, e6, e7, e8, e9, e10, e11⟩ := block_indices ⟨(i 0).val / 5000, by rw [hN]; omega⟩
  intro a
  match a with
  | ⟨0, _⟩ =>
    show win2_5.index _ (0 : Fin 2) * 5000 ≤ (i 0).val ∧ (i 0).val < win2_5.index _ (0 : Fin 2) * 5000 + 5000
    rw [e10]; show (i 0).val / 5000 * 5000 ≤ (i 0).val ∧ (i 0).val < (i 0).val / 5000 * 5000 + 5000; omega
  | ⟨1, _⟩ =>
    show win2_5.index _ (1 : Fin 2) * 40 ≤ (i 1).val ∧ (i 1).val < win2_5.index _ (1 : Fin 2) * 40 + 40
    rw [e11]; omega

/-- The result array after the grid is the whole-array function of the arrays the grid found. -/
theorem final (c : Dev nD) : (dat2 V c).arrAt 5 cfg2.N = result V c :=
  (dat2 V c).arrAt_eq_of_cover 5 (result V c) (fun t _ => flushed_eq V c t) (covered)

end Cert.KernelIdeal.Dense2

end
-- ==== Proof.Whole.lean ====
/-
  The idealized kernel program's result array as ONE function of its nine argument arrays.

  Walking the six stretches from the launch memory: the first stretch leaves the features with every edge's source
  row added onto its destination row; the first grid turns that into the first hidden layer `hidden1`; the second
  stretch and grid do the same from `hidden1` and give `hidden2`; the third stretch forms the neighbour sums of
  `hidden2` and one over each node's in-degree (at least one); the third grid mixes them and applies the output map.
  No stretch writes an argument array, so each boundary reads the arguments as launched.
-/
import proofs.«132324_j12936441496234_2_alg».proof.Proof.Gen.KernelIdeal.Frame
import proofs.«132324_j12936441496234_2_alg».proof.Proof.Spec
import proofs.«132324_j12936441496234_2_alg».proof.Proof.HostRead
import proofs.«132324_j12936441496234_2_alg».proof.Proof.Dense0
import proofs.«132324_j12936441496234_2_alg».proof.Proof.Dense1
import proofs.«132324_j12936441496234_2_alg».proof.Proof.Dense2

set_option maxRecDepth 16384

noncomputable section

namespace Cert.KernelIdeal.Whole

open Cert.KernelIdeal Cert.KernelIdeal.Gen Cert.KernelIdeal.HostRead
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- The first hidden layer, of the arguments as launched. -/
def hidden1 : Cert.Gin.Nodes128.Idx → EReal :=
  Cert.Gin.layer (selfSummed (F := Ideal) (m ((c : Thread nD τ).loc main_arg0)) (m ((c : Thread nD τ).loc main_arg1)) (m ((c : Thread nD τ).loc main_arg2)))
    (m ((c : Thread nD τ).loc main_arg3)) (fun q => shapeCast S1x128 (m ((c : Thread nD τ).loc main_arg4)) shapeCasts_S128_S1x128 (ix2 0 q))

/-- The second hidden layer. -/
def hidden2 : Cert.Gin.Nodes128.Idx → EReal :=
  Cert.Gin.layer (selfSummed (F := Ideal) (hidden1 m c) (m ((c : Thread nD τ).loc main_arg1)) (m ((c : Thread nD τ).loc main_arg2)))
    (m ((c : Thread nD τ).loc main_arg5)) (fun q => shapeCast S1x128 (m ((c : Thread nD τ).loc main_arg6)) shapeCasts_S128_S1x128 (ix2 0 q))

/-- The result. -/
def output : Cert.Gin.Nodes40.Idx → EReal :=
  Cert.Gin.out40
    (Cert.Gin.mix (hidden2 m c)
      (neighbourSum (F := Ideal) (hidden2 m c) (m ((c : Thread nD τ).loc main_arg1)) (m ((c : Thread nD τ).loc main_arg2)))
      (fun r => invDegree (F := Ideal) (m ((c : Thread nD τ).loc main_arg2)) (ix2 r 0)))
    (m ((c : Thread nD τ).loc main_arg7)) (fun q => shapeCast S1x40 (m ((c : Thread nD τ).loc main_arg8)) shapeCasts_S40_S1x40 (ix2 0 q))

/-! ## The arguments at the later boundaries -/

theorem at2_arg1 : W2 m ρ c (Proc.devRef .tc main_arg1) = m ((c : Thread nD τ).loc main_arg1) :=
  (W2_of_ne m ρ c main_arg1 (by decide)).trans (first_keeps_arg (W0 m ρ c) main_arg1 (.inl rfl))
theorem at2_arg2 : W2 m ρ c (Proc.devRef .tc main_arg2) = m ((c : Thread nD τ).loc main_arg2) :=
  (W2_of_ne m ρ c main_arg2 (by decide)).trans (first_keeps_arg (W0 m ρ c) main_arg2 (.inr (.inl rfl)))
theorem at2_arg5 : W2 m ρ c (Proc.devRef .tc main_arg5) = m ((c : Thread nD τ).loc main_arg5) :=
  (W2_of_ne m ρ c main_arg5 (by decide)).trans (first_keeps_arg (W0 m ρ c) main_arg5 (.inr (.inr (.inl rfl))))
theorem at2_arg6 : W2 m ρ c (Proc.devRef .tc main_arg6) = m ((c : Thread nD τ).loc main_arg6) :=
  (W2_of_ne m ρ c main_arg6 (by decide)).trans (first_keeps_arg (W0 m ρ c) main_arg6 (.inr (.inr (.inr (.inl rfl)))))
theorem at2_arg7 : W2 m ρ c (Proc.devRef .tc main_arg7) = m ((c : Thread nD τ).loc main_arg7) :=
  (W2_of_ne m ρ c main_arg7 (by decide)).trans (first_keeps_arg (W0 m ρ c) main_arg7 (.inr (.inr (.inr (.inr (.inl rfl))))))
theorem at2_arg8 : W2 m ρ c (Proc.devRef .tc main_arg8) = m ((c : Thread nD τ).loc main_arg8) :=
  (W2_of_ne m ρ c main_arg8 (by decide)).trans (first_keeps_arg (W0 m ρ c) main_arg8 (.inr (.inr (.inr (.inr (.inr rfl))))))

theorem at4_arg1 : W4 m ρ c (Proc.devRef .tc main_arg1) = m ((c : Thread nD τ).loc main_arg1) :=
  (W4_of_ne m ρ c main_arg1 (by decide)).trans ((second_keeps_arg (W2 m ρ c) main_arg1 (.inl rfl)).trans (at2_arg1 m ρ c))
theorem at4_arg2 : W4 m ρ c (Proc.devRef .tc main_arg2) = m ((c : Thread nD τ).loc main_arg2) :=
  (W4_of_ne m ρ c main_arg2 (by decide)).trans ((second_keeps_arg (W2 m ρ c) main_arg2 (.inr (.inl rfl))).trans (at2_arg2 m ρ c))
theorem at4_arg7 : W4 m ρ c (Proc.devRef .tc main_arg7) = m ((c : Thread nD τ).loc main_arg7) :=
  (W4_of_ne m ρ c main_arg7 (by decide)).trans ((second_keeps_arg (W2 m ρ c) main_arg7 (.inr (.inr (.inl rfl)))).trans (at2_arg7 m ρ c))
theorem at4_arg8 : W4 m ρ c (Proc.devRef .tc main_arg8) = m ((c : Thread nD τ).loc main_arg8) :=
  (W4_of_ne m ρ c main_arg8 (by decide)).trans ((second_keeps_arg (W2 m ρ c) main_arg8 (.inr (.inr (.inr rfl)))).trans (at2_arg8 m ρ c))

/-! ## The first grid -/

theorem in0_features : V1 m ρ c main_v13
    = selfSummed (F := Ideal) (m ((c : Thread nD τ).loc main_arg0)) (m ((c : Thread nD τ).loc main_arg1)) (m ((c : Thread nD τ).loc main_arg2)) :=
  first_summed (W0 m ρ c)
theorem in0_weights : V1 m ρ c main_arg3 = m ((c : Thread nD τ).loc main_arg3) := first_weights (W0 m ρ c)
theorem in0_bias : V1 m ρ c main_v14 = shapeCast S1x128 (m ((c : Thread nD τ).loc main_arg4)) shapeCasts_S128_S1x128 :=
  first_bias (W0 m ρ c)

theorem after_first_grid : W2 m ρ c (Proc.devRef .tc main_v15) = hidden1 m c := by
  refine (W2_arr m ρ c 3).trans ((Cert.KernelIdeal.Dense0.final (V1 m ρ) c).trans ?_)
  unfold Cert.KernelIdeal.Dense0.result hidden1
  rw [in0_features, in0_weights, in0_bias]

/-! ## The second grid -/

theorem in1_features : V3 m ρ c main_v29
    = selfSummed (F := Ideal) (hidden1 m c) (m ((c : Thread nD τ).loc main_arg1)) (m ((c : Thread nD τ).loc main_arg2)) := by
  refine (second_summed (W2 m ρ c)).trans ?_
  rw [after_first_grid, at2_arg1, at2_arg2]
theorem in1_weights : V3 m ρ c main_arg5 = m ((c : Thread nD τ).loc main_arg5) :=
  (second_weights (W2 m ρ c)).trans (at2_arg5 m ρ c)
theorem in1_bias : V3 m ρ c main_v30 = shapeCast S1x128 (m ((c : Thread nD τ).loc main_arg6)) shapeCasts_S128_S1x128 := by
  refine (second_bias (W2 m ρ c)).trans ?_
  rw [at2_arg6]

theorem after_second_grid : W4 m ρ c (Proc.devRef .tc main_v31) = hidden2 m c := by
  refine (W4_arr m ρ c 3).trans ((Cert.KernelIdeal.Dense1.final (V3 m ρ) c).trans ?_)
  unfold Cert.KernelIdeal.Dense1.result hidden2
  rw [in1_features, in1_weights, in1_bias]

/-! ## The third grid -/

theorem in2_features : V5 m ρ c main_v31 = hidden2 m c :=
  (third_features (W4 m ρ c)).trans (after_second_grid m ρ c)
theorem in2_neighbours : V5 m ρ c main_v41
    = neighbourSum (F := Ideal) (hidden2 m c) (m ((c : Thread nD τ).loc main_arg1)) (m ((c : Thread nD τ).loc main_arg2)) := by
  refine (third_neighbours (W4 m ρ c)).trans ?_
  rw [after_second_grid, at4_arg1, at4_arg2]
theorem in2_factor : V5 m ρ c main_v50 = invDegree (F := Ideal) (m ((c : Thread nD τ).loc main_arg2)) := by
  refine (third_factor (W4 m ρ c)).trans ?_
  rw [at4_arg2]
theorem in2_weights : V5 m ρ c main_arg7 = m ((c : Thread nD τ).loc main_arg7) :=
  (third_weights (W4 m ρ c)).trans (at4_arg7 m ρ c)
theorem in2_bias : V5 m ρ c main_v51 = shapeCast S1x40 (m ((c : Thread nD τ).loc main_arg8)) shapeCasts_S40_S1x40 := by
  refine (third_bias (W4 m ρ c)).trans ?_
  rw [at4_arg8]

/-- The result array at the last boundary is `output` of the arguments as launched. -/
theorem result_eq : W6 m ρ c (Proc.devRef .tc main_v52) = output m c := by
  refine (W6_arr m ρ c 5).trans ((Cert.KernelIdeal.Dense2.final (V5 m ρ) c).trans ?_)
  unfold Cert.KernelIdeal.Dense2.result output
  rw [in2_features, in2_neighbours, in2_factor, in2_weights, in2_bias]

end Cert.KernelIdeal.Whole

end
-- ==== Proof.RefLayer.lean ====
/-
  The reference program's dense layers, read as whole arrays over the extended reals.

  A dense layer multiplies the node array by a weight matrix, adds a bias row to every node row, and (for a
  hidden layer) clamps every entry below at zero.  Read at entry (r, q): the product is the sum over k of
  a(r, k) · w(k, q); the two broadcasts of the bias put b(q) there; the broadcast zero is the real 0; and the
  maximum is the maximum of extended reals.  That is the specification's `layer` / `out40`.  The last layer's
  input adds to a node's own row its neighbour sum divided by max(degree, 1); since that divisor is at least 1 it
  is not 0, and dividing by it is multiplying by its inverse, which is the specification's `mix` with the factor
  1 / max(degree, 1).
-/
import proofs.«132324_j12936441496234_2_alg».proof.Proof.Spec
import proofs.«132324_j12936441496234_2_alg».proof.ReferenceIdeal
import Idealize.ShloMosaic.Lib.ValueIdx
import Idealize.ShloMosaic.Lib.Pipeline.Value
import Idealize.ShloMosaic.PureOps.Ideal.Laws
import Idealize.ShloMosaic.Lib.IdealHost

noncomputable section

namespace Cert.ReferenceIdeal.Layer

open Cert.ReferenceIdeal Idealize.ShloMosaic Idealize.ShloMosaic.ValueIdx

variable [Cert.ReferenceIdeal.Facts]
open Facts₀ Facts

/-! ## The matrix products at an entry -/

/-- The 128-column product: the left operand's row coordinate is the entry's row (axis 0 is the left operand's free axis). -/
theorem lhs128_0 (i : S50000x128.Idx) (κ : dot_S50000x128_S128x128_S50000x128_1_0_0_1_n_n.contr.Idx) :
    (dot_S50000x128_S128x128_S50000x128_1_0_0_1_n_n.lhsIdx i κ 0).val = (i 0).val := by
  unfold DotDims.lhsIdx
  rw [dif_neg (show ¬(0 : Fin S50000x128.rank) ∈ dot_S50000x128_S128x128_S50000x128_1_0_0_1_n_n.lhsBatch from List.not_mem_nil),
    dif_pos (show (0 : Fin S50000x128.rank) ∈ dot_S50000x128_S128x128_S50000x128_1_0_0_1_n_n.lhsNonContracting from List.mem_singleton.mpr rfl)]
  rfl
/-- … and the right operand's column coordinate is the entry's column (axis 1 is the right operand's free axis). -/
theorem rhs128_1 (i : S50000x128.Idx) (κ : dot_S50000x128_S128x128_S50000x128_1_0_0_1_n_n.contr.Idx) :
    (dot_S50000x128_S128x128_S50000x128_1_0_0_1_n_n.rhsIdx i κ 1).val = (i 1).val := by
  unfold DotDims.rhsIdx
  rw [dif_neg (show ¬(1 : Fin S128x128.rank) ∈ dot_S50000x128_S128x128_S50000x128_1_0_0_1_n_n.rhsBatch from List.not_mem_nil),
    dif_pos (show (1 : Fin S128x128.rank) ∈ dot_S50000x128_S128x128_S50000x128_1_0_0_1_n_n.rhsNonContracting from List.mem_singleton.mpr rfl)]
  rfl

/-- Entry (r, q) of the 128-column product: the sum over k of a(r, k) · w(k, q). -/
theorem dot128_apply (a : FVec Ideal S50000x128 .f32) (w : FVec Ideal S128x128 .f32) (r : Fin 50000) (q : Fin 128) :
    Host.dotGeneral dot_S50000x128_S128x128_S50000x128_1_0_0_1_n_n none a w (ix2 r q)
      = ∑ k : Fin 128, a (ix2 r k) * w (ix2 k q) := by
  simp only [Host.dotGeneral]
  rw [Ideal.dotGeneral_apply,
    ← Equiv.sum_comp (contrEquiv1 dot_S50000x128_S128x128_S50000x128_1_0_0_1_n_n 128 rfl rfl).symm]
  refine Finset.sum_congr rfl fun k _ => ?_
  -- the contraction index that corresponds to k has k as its one coordinate
  have hk := contrEquiv1_symm_val dot_S50000x128_S128x128_S50000x128_1_0_0_1_n_n 128 rfl rfl k
  -- the left operand is read at (r, k): axis 0 is the free row axis, axis 1 the contracted one
  have el : dot_S50000x128_S128x128_S50000x128_1_0_0_1_n_n.lhsIdx (ix2 r q)
      ((contrEquiv1 dot_S50000x128_S128x128_S50000x128_1_0_0_1_n_n 128 rfl rfl).symm k) = ix2 r k :=
    funext fun x => Fin.ext (by
      match x with
      | ⟨0, _⟩ => exact lhs128_0 (ix2 r q) _
      | ⟨1, _⟩ => exact (dot_S50000x128_S128x128_S50000x128_1_0_0_1_n_n.lhsIdx_val_of_single rfl (ix2 r q) _).trans hk)
  -- the right operand is read at (k, q): axis 0 is the contracted axis, axis 1 the free column axis
  have er : dot_S50000x128_S128x128_S50000x128_1_0_0_1_n_n.rhsIdx (ix2 r q)
      ((contrEquiv1 dot_S50000x128_S128x128_S50000x128_1_0_0_1_n_n 128 rfl rfl).symm k) = ix2 k q :=
    funext fun x => Fin.ext (by
      match x with
      | ⟨0, _⟩ => exact (dot_S50000x128_S128x128_S50000x128_1_0_0_1_n_n.rhsIdx_val_of_single rfl (ix2 r q) _).trans hk
      | ⟨1, _⟩ => exact rhs128_1 (ix2 r q) _)
  rw [el, er]

/-- The 40-column product: the left operand's row coordinate is the entry's row (axis 0 is the left operand's free axis). -/
theorem lhs40_0 (i : S50000x40.Idx) (κ : dot_S50000x128_S128x40_S50000x40_1_0_0_1_n_n.contr.Idx) :
    (dot_S50000x128_S128x40_S50000x40_1_0_0_1_n_n.lhsIdx i κ 0).val = (i 0).val := by
  unfold DotDims.lhsIdx
  rw [dif_neg (show ¬(0 : Fin S50000x128.rank) ∈ dot_S50000x128_S128x40_S50000x40_1_0_0_1_n_n.lhsBatch from List.not_mem_nil),
    dif_pos (show (0 : Fin S50000x128.rank) ∈ dot_S50000x128_S128x40_S50000x40_1_0_0_1_n_n.lhsNonContracting from List.mem_singleton.mpr rfl)]
  rfl
/-- … and the right operand's column coordinate is the entry's column (axis 1 is the right operand's free axis). -/
theorem rhs40_1 (i : S50000x40.Idx) (κ : dot_S50000x128_S128x40_S50000x40_1_0_0_1_n_n.contr.Idx) :
    (dot_S50000x128_S128x40_S50000x40_1_0_0_1_n_n.rhsIdx i κ 1).val = (i 1).val := by
  unfold DotDims.rhsIdx
  rw [dif_neg (show ¬(1 : Fin S128x40.rank) ∈ dot_S50000x128_S128x40_S50000x40_1_0_0_1_n_n.rhsBatch from List.not_mem_nil),
    dif_pos (show (1 : Fin S128x40.rank) ∈ dot_S50000x128_S128x40_S50000x40_1_0_0_1_n_n.rhsNonContracting from List.mem_singleton.mpr rfl)]
  rfl

/-- Entry (r, q) of the 40-column product: the sum over k of a(r, k) · w(k, q). -/
theorem dot40_apply (a : FVec Ideal S50000x128 .f32) (w : FVec Ideal S128x40 .f32) (r : Fin 50000) (q : Fin 40) :
    Host.dotGeneral dot_S50000x128_S128x40_S50000x40_1_0_0_1_n_n none a w (ix2 r q)
      = ∑ k : Fin 128, a (ix2 r k) * w (ix2 k q) := by
  simp only [Host.dotGeneral]
  rw [Ideal.dotGeneral_apply,
    ← Equiv.sum_comp (contrEquiv1 dot_S50000x128_S128x40_S50000x40_1_0_0_1_n_n 128 rfl rfl).symm]
  refine Finset.sum_congr rfl fun k _ => ?_
  -- the contraction index that corresponds to k has k as its one coordinate
  have hk := contrEquiv1_symm_val dot_S50000x128_S128x40_S50000x40_1_0_0_1_n_n 128 rfl rfl k
  -- the left operand is read at (r, k): axis 0 is the free row axis, axis 1 the contracted one
  have el : dot_S50000x128_S128x40_S50000x40_1_0_0_1_n_n.lhsIdx (ix2 r q)
      ((contrEquiv1 dot_S50000x128_S128x40_S50000x40_1_0_0_1_n_n 128 rfl rfl).symm k) = ix2 r k :=
    funext fun x => Fin.ext (by
      match x with
      | ⟨0, _⟩ => exact lhs40_0 (ix2 r q) _
      | ⟨1, _⟩ => exact (dot_S50000x128_S128x40_S50000x40_1_0_0_1_n_n.lhsIdx_val_of_single rfl (ix2 r q) _).trans hk)
  -- the right operand is read at (k, q): axis 0 is the contracted axis, axis 1 the free column axis
  have er : dot_S50000x128_S128x40_S50000x40_1_0_0_1_n_n.rhsIdx (ix2 r q)
      ((contrEquiv1 dot_S50000x128_S128x40_S50000x40_1_0_0_1_n_n 128 rfl rfl).symm k) = ix2 k q :=
    funext fun x => Fin.ext (by
      match x with
      | ⟨0, _⟩ => exact (dot_S50000x128_S128x40_S50000x40_1_0_0_1_n_n.rhsIdx_val_of_single rfl (ix2 r q) _).trans hk
      | ⟨1, _⟩ => exact rhs40_1 (ix2 r q) _)
  rw [el, er]

/-! ## The broadcasts at an entry -/

/-- The bias row broadcast over the nodes reads b(q) at entry (r, q). -/
theorem bias128_apply (b : FVec Ideal S128 .f32) (r : Fin 50000) (q : Fin 128) :
    broadcastInDim S50000x128 ![0, 1] bcast_S1x128_S50000x128_0_1
        (broadcastInDim S1x128 ![1] bcast_S128_S1x128_1 b) (ix2 r q) = b (ix1 q) := by
  refine (broadcastInDim_apply _ bcast_S1x128_S50000x128_0_1 _ (ix2 r q) (ix2 (0 : Fin 1) q) ?_).trans ?_
  · intro x
    match x with
    | ⟨0, _⟩ => show 0 = if (1 : Nat) = 1 then 0 else r.val; rw [if_pos rfl]
    | ⟨1, _⟩ => show q.val = if (128 : Nat) = 1 then 0 else q.val; rw [if_neg (by decide)]
  · refine broadcastInDim_apply _ bcast_S128_S1x128_1 b (ix2 (0 : Fin 1) q) (ix1 q) ?_
    intro x
    match x with
    | ⟨0, _⟩ => show q.val = if (128 : Nat) = 1 then 0 else q.val; rw [if_neg (by decide)]

/-- The 40-entry bias row broadcast over the nodes reads b(q) at entry (r, q). -/
theorem bias40_apply (b : FVec Ideal S40 .f32) (r : Fin 50000) (q : Fin 40) :
    broadcastInDim S50000x40 ![0, 1] bcast_S1x40_S50000x40_0_1
        (broadcastInDim S1x40 ![1] bcast_S40_S1x40_1 b) (ix2 r q) = b (ix1 q) := by
  refine (broadcastInDim_apply _ bcast_S1x40_S50000x40_0_1 _ (ix2 r q) (ix2 (0 : Fin 1) q) ?_).trans ?_
  · intro x
    match x with
    | ⟨0, _⟩ => show 0 = if (1 : Nat) = 1 then 0 else r.val; rw [if_pos rfl]
    | ⟨1, _⟩ => show q.val = if (40 : Nat) = 1 then 0 else q.val; rw [if_neg (by decide)]
  · refine broadcastInDim_apply _ bcast_S40_S1x40_1 b (ix2 (0 : Fin 1) q) (ix1 q) ?_
    intro x
    match x with
    | ⟨0, _⟩ => show q.val = if (40 : Nat) = 1 then 0 else q.val; rw [if_neg (by decide)]

/-- The broadcast zero word is the real 0 at every entry. -/
theorem zero128_apply (i : S50000x128.Idx) :
    broadcastInDim S50000x128 ![] bcast_S_S50000x128 (constant (F := Ideal) S_ .f32 0x00000000#32) i = 0 := by
  refine (broadcastInDim_apply _ bcast_S_S50000x128 _ i ix0 (fun x => x.elim0)).trans ?_
  rw [constant_apply]
  exact Ideal.ofBits_zero_f32

/-! ## The layers -/

/-- A hidden layer of the reference is the specification's clamped affine map. -/
theorem hidden (a : FVec Ideal S50000x128 .f32) (w : FVec Ideal S128x128 .f32) (b : FVec Ideal S128 .f32) :
    maximumf (addf (Host.dotGeneral dot_S50000x128_S128x128_S50000x128_1_0_0_1_n_n none a w)
        (broadcastInDim S50000x128 ![0, 1] bcast_S1x128_S50000x128_0_1 (broadcastInDim S1x128 ![1] bcast_S128_S1x128_1 b)))
      (broadcastInDim S50000x128 ![] bcast_S_S50000x128 (constant (F := Ideal) S_ .f32 0x00000000#32))
    = Cert.Gin.layer a w (fun q => b (ix1 q)) := by
  funext i
  obtain ⟨r, q, rfl⟩ : ∃ (r : Fin 50000) (q : Fin 128), i = ix2 r q := ⟨i 0, i 1, eq_ix2 i⟩
  rw [maximumf_apply, addf_apply, dot128_apply, bias128_apply, zero128_apply]
  show _ = max ((0 + ∑ k : Fin 128, a (ix2 r k) * w (ix2 k q)) + b (ix1 q)) 0
  rw [zero_add]

/-- The output layer of the reference is the specification's affine map. -/
theorem last (a : FVec Ideal S50000x128 .f32) (w : FVec Ideal S128x40 .f32) (b : FVec Ideal S40 .f32) :
    addf (Host.dotGeneral dot_S50000x128_S128x40_S50000x40_1_0_0_1_n_n none a w)
        (broadcastInDim S50000x40 ![0, 1] bcast_S1x40_S50000x40_0_1 (broadcastInDim S1x40 ![1] bcast_S40_S1x40_1 b))
    = Cert.Gin.out40 a w (fun q => b (ix1 q)) := by
  funext i
  obtain ⟨r, q, rfl⟩ : ∃ (r : Fin 50000) (q : Fin 40), i = ix2 r q := ⟨i 0, i 1, eq_ix2 i⟩
  rw [addf_apply, dot40_apply, bias40_apply]
  show _ = (0 + ∑ k : Fin 128, a (ix2 r k) * w (ix2 k q)) + b (ix1 q)
  rw [zero_add]

/-! ## The last layer's input -/

/-- The broadcast word 0x3F800000 is the real 1 at every node. -/
theorem one_apply (j : S50000.Idx) :
    broadcastInDim S50000 ![] bcast_S_S50000 (constant (F := Ideal) S_ .f32 0x3F800000#32) j = 1 := by
  refine (broadcastInDim_apply _ bcast_S_S50000 _ j ix0 (fun x => x.elim0)).trans ?_
  rw [constant_apply]
  exact Ideal.ofBits_one_f32

/-- A per-node array broadcast along the 128 columns reads the node's value at entry (r, q). -/
theorem rows_apply (d : FVec Ideal S50000 .f32) (r : Fin 50000) (q : Fin 128) :
    broadcastInDim S50000x128 ![0, 1] bcast_S50000x1_S50000x128_0_1
        (broadcastInDim S50000x1 ![0] bcast_S50000_S50000x1_0 d) (ix2 r q) = d (ix1 r) := by
  refine (broadcastInDim_apply _ bcast_S50000x1_S50000x128_0_1 _ (ix2 r q) (ix2 r (0 : Fin 1)) ?_).trans ?_
  · intro x
    match x with
    | ⟨0, _⟩ => show r.val = if (50000 : Nat) = 1 then 0 else r.val; rw [if_neg (by decide)]
    | ⟨1, _⟩ => show 0 = if (1 : Nat) = 1 then 0 else q.val; rw [if_pos rfl]
  · refine broadcastInDim_apply _ bcast_S50000_S50000x1_0 d (ix2 r (0 : Fin 1)) (ix1 r) ?_
    intro x
    match x with
    | ⟨0, _⟩ => show r.val = if (50000 : Nat) = 1 then 0 else r.val; rw [if_neg (by decide)]

/-- Dividing by a nonzero extended real is multiplying by the quotient of 1 by it: both are the product with the
    inverse. -/
theorem div_eq_mul_one_div (x d : EReal) (hd : d ≠ 0) : Ideal.div x d = x * Ideal.div 1 d := by
  unfold Ideal.div
  rw [if_neg hd, if_neg hd, one_mul]

/-- The maximum of anything with 1 is not 0: it is at least 1, which is above 0. -/
theorem max_one_ne_zero (x : EReal) : max x 1 ≠ 0 :=
  (lt_of_lt_of_le zero_lt_one (le_max_right x 1)).ne'

/-- The last layer's input in the reference is the specification's `mix` with the factor 1 / max(degree, 1). -/
theorem mixed (h agg : FVec Ideal S50000x128 .f32) (deg : FVec Ideal S50000 .f32) :
    addf h (Host.divf agg (broadcastInDim S50000x128 ![0, 1] bcast_S50000x1_S50000x128_0_1 (broadcastInDim S50000x1 ![0] bcast_S50000_S50000x1_0
        (maximumf deg (broadcastInDim S50000 ![] bcast_S_S50000 (constant (F := Ideal) S_ .f32 0x3F800000#32))))))
    = Cert.Gin.mix h agg (fun r => Ideal.div 1 (max (deg (ix1 r)) 1)) := by
  funext i
  obtain ⟨r, q, rfl⟩ : ∃ (r : Fin 50000) (q : Fin 128), i = ix2 r q := ⟨i 0, i 1, eq_ix2 i⟩
  rw [addf_apply]
  show h (ix2 r q) + Ideal.div (agg (ix2 r q)) (broadcastInDim S50000x128 ![0, 1] bcast_S50000x1_S50000x128_0_1
      (broadcastInDim S50000x1 ![0] bcast_S50000_S50000x1_0
        (maximumf deg (broadcastInDim S50000 ![] bcast_S_S50000 (constant (F := Ideal) S_ .f32 0x3F800000#32)))) (ix2 r q))
    = h (ix2 r q) + agg (ix2 r q) * Ideal.div 1 (max (deg (ix1 r)) 1)
  rw [rows_apply, maximumf_apply, one_apply, div_eq_mul_one_div _ _ (max_one_ne_zero _)]

end Cert.ReferenceIdeal.Layer

end
-- ==== Proof.RefWhole.lean ====
/-
  The idealized reference program's result array as ONE function of its nine argument arrays.

  The reference's composed term is three dense layers in a row.  Each hidden layer adds to the features the
  neighbour sums (every edge's source row accumulated onto zeros at the edge's destination), multiplies by the
  weights, adds the bias and clamps below at zero; the last divides the neighbour sums by the larger of the
  in-degree and one before adding, and is not clamped.  Each layer is the specification's function
  (`Cert.ReferenceIdeal.Layer`), so the whole term is the nest below.
-/
import proofs.«132324_j12936441496234_2_alg».proof.Proof.Gen.ReferenceIdeal.Run
import proofs.«132324_j12936441496234_2_alg».proof.Proof.Spec
import proofs.«132324_j12936441496234_2_alg».proof.Proof.RefLayer

set_option maxRecDepth 16384

noncomputable section

namespace Cert.ReferenceIdeal.Whole

open Cert.ReferenceIdeal Cert.ReferenceIdeal.Gen
open Idealize.ShloMosaic Idealize.ShloMosaic.TcCoe Idealize.ShloMosaic.ValueIdx Idealize.SL.Sem

/-- An edge endpoint below zero is shifted up by the number of nodes. -/
def shifted (x : IVec S800000 32) : IVec S800000 32 :=
  select (cmpi .slt x (broadcastInDim S800000 ![] bcast_S_S800000 (constantI S_ 32 0#32)))
    (addi x (broadcastInDim S800000 ![] bcast_S_S800000 (constantI S_ 32 50000#32))) x

/-- An index vector as a one-column matrix. -/
def column (x : IVec S800000 32) : IVec S800000x1 32 := broadcastInDim S800000x1 ![0] bcast_S800000_S800000x1_0 x

/-- The neighbour sums: per edge the row of `h` at the (shifted) source, accumulated onto zeros at the destination. -/
def neighbourSum (h : FVec Ideal S50000x128 .f32) (s d : IVec S800000 32) : FVec Ideal S50000x128 .f32 :=
  Host.scatterAdd scatter_S50000x128_S800000x1_S800000x128_1_0_0_1
    (broadcastInDim S50000x128 ![] bcast_S_S50000x128 (constant (F := Ideal) S_ .f32 0x00000000#32)) (column d)
    (Host.gather gather_S50000x128_S800000x1_S800000x128_1_0_n_n_0_1_1128 h (column (shifted s)))

/-- Each node's number of incoming edges. -/
def inDegree (d : IVec S800000 32) : FVec Ideal S50000 .f32 :=
  Host.scatterAdd scatter_S50000_S800000x1_S800000_n_0_0_1
    (broadcastInDim S50000 ![] bcast_S_S50000 (constant (F := Ideal) S_ .f32 0x00000000#32)) (column d)
    (broadcastInDim S800000 ![] bcast_S_S800000 (constant (F := Ideal) S_ .f32 0x3F800000#32))

variable (m : (ℓ : Loc nD τ sig) → Buf (Elt Ideal) ℓ) (c : Dev nD)

def hidden1 : Cert.Gin.Nodes128.Idx → EReal :=
  Cert.Gin.layer
    (addf (m ((c.tc : Thread nD τ).loc main_arg0))
      (neighbourSum (m ((c.tc : Thread nD τ).loc main_arg0)) (m ((c.tc : Thread nD τ).loc main_arg1)) (m ((c.tc : Thread nD τ).loc main_arg2))))
    (m ((c.tc : Thread nD τ).loc main_arg3)) (fun q => m ((c.tc : Thread nD τ).loc main_arg4) (ix1 q))

def hidden2 : Cert.Gin.Nodes128.Idx → EReal :=
  Cert.Gin.layer
    (addf (hidden1 m c) (neighbourSum (hidden1 m c) (m ((c.tc : Thread nD τ).loc main_arg1)) (m ((c.tc : Thread nD τ).loc main_arg2))))
    (m ((c.tc : Thread nD τ).loc main_arg5)) (fun q => m ((c.tc : Thread nD τ).loc main_arg6) (ix1 q))

def output : Cert.Gin.Nodes40.Idx → EReal :=
  Cert.Gin.out40
    (Cert.Gin.mix (hidden2 m c)
      (neighbourSum (hidden2 m c) (m ((c.tc : Thread nD τ).loc main_arg1)) (m ((c.tc : Thread nD τ).loc main_arg2)))
      (fun r => Ideal.div 1 (max (inDegree (m ((c.tc : Thread nD τ).loc main_arg2)) (ix1 r)) 1)))
    (m ((c.tc : Thread nD τ).loc main_arg7)) (fun q => m ((c.tc : Thread nD τ).loc main_arg8) (ix1 q))

/-- The reference's composed result term is `output` of its arguments. -/
theorem result_eq : Cert.ReferenceIdeal.Value.res_main_v55 (F := Ideal) m c = output m c := by
  unfold Cert.ReferenceIdeal.Value.res_main_v55 output hidden2 hidden1 neighbourSum inDegree column shifted
  rw [Cert.ReferenceIdeal.Layer.hidden, Cert.ReferenceIdeal.Layer.hidden, Cert.ReferenceIdeal.Layer.mixed, Cert.ReferenceIdeal.Layer.last]

end Cert.ReferenceIdeal.Whole

end
-- ==== Proof.HostFacts.lean ====
/-
  Four facts about the program's host operations at the ideal instance (floats are extended reals, operations
  exact), each read index by index.

  Accumulating the edge updates onto an array h is h plus accumulating them onto zeros: the ideal accumulating
  scatter is, at each index, the operand's element plus the sum of the updates that land there; the zeros array
  is the word 0 spread over the shape, which reads 0, and 0 + s = s. (Stated first over any shapes and any array
  that reads 0, then at the program's shapes.)

  A bias vector of length n reshaped to one row [1, n] reads, at (0, q), the vector at q.

  The per-node factor: the quotient of the array of ones by max(deg, ones), spread from [50000] to [50000, 1],
  read at (r, 0) is the quotient at r; the spread word 0x3F800000 reads 1, the quotient is the ideal division
  and the maximum is max.
-/
import proofs.«132324_j12936441496234_2_alg».proof.KernelIdeal
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

namespace Cert.KernelIdeal.HostFacts

open Cert.KernelIdeal Idealize.ShloMosaic Idealize.ShloMosaic.ValueIdx

variable [Cert.KernelIdeal.Facts]
open Facts₀ Facts

/-- The word 0 spread over the node rows reads 0. -/
theorem zeros_apply (j : S50000x128.Idx) :
    broadcastInDim S50000x128 ![] bcast_S_S50000x128 (constant (F := Ideal) S_ .f32 0x00000000#32) j = 0 := by
  rw [broadcastInDim_scalar_apply, constant_apply, Ideal.ofBits_zero_f32]

/-- The word 0x3F800000 spread over the nodes reads 1. -/
theorem ones_apply (j : S50000.Idx) :
    broadcastInDim S50000 ![] bcast_S_S50000 (constant (F := Ideal) S_ .f32 0x3F800000#32) j = 1 := by
  rw [broadcastInDim_scalar_apply, constant_apply, Ideal.ofBits_one_f32]

/-- The ideal accumulating scatter onto an array that reads 0 everywhere, added to x, is the scatter onto x:
    at each index the scatter is the operand's element plus the sum of the updates landing there. -/
theorem scatterAdd_onto {s si su : Shape} {w : Nat} (d : ScatterDims s si su) (x z : FVec Ideal s .f32)
    (idx : IVec si w) (upd : FVec Ideal su .f32) (hz : ∀ j, z j = 0) :
    Host.scatterAdd d x idx upd = addf x (Host.scatterAdd d z idx upd) := by
  funext j
  show x j + _ = x j + (z j + _)
  rw [hz, zero_add]

/-- Accumulating onto h is h plus accumulating onto zeros. -/
theorem scatter_onto (h : FVec Ideal S50000x128 .f32) (i : IVec S800000x1 32) (u : FVec Ideal S800000x128 .f32) :
    Host.scatterAdd scatter_S50000x128_S800000x1_S800000x128_1_0_0_1 h i u
    = addf h (Host.scatterAdd scatter_S50000x128_S800000x1_S800000x128_1_0_0_1 (broadcastInDim S50000x128 ![] bcast_S_S50000x128 (constant (F := Ideal) S_ .f32 0x00000000#32)) i u) :=
  scatterAdd_onto _ h _ i u zeros_apply

/-- A length-128 vector as one row, read at (0, q). -/
theorem bias_row128 (b : FVec Ideal S128 .f32) (q : Fin 128) :
    shapeCast S1x128 b shapeCasts_S128_S1x128 (ix2 0 q) = b (ix1 q) :=
  shapeCast_a_1a_apply b shapeCasts_S128_S1x128 0 q

/-- A length-40 vector as one row, read at (0, q). -/
theorem bias_row40 (b : FVec Ideal S40 .f32) (q : Fin 40) :
    shapeCast S1x40 b shapeCasts_S40_S1x40 (ix2 0 q) = b (ix1 q) :=
  shapeCast_a_1a_apply b shapeCasts_S40_S1x40 0 q

/-- The per-node factor read at (r, 0): one over max(deg r, 1). -/
theorem inv_degree_at (deg : FVec Ideal S50000 .f32) (r : Fin 50000) :
    broadcastInDim S50000x1 ![0] bcast_S50000_S50000x1_0
      (Host.divf (broadcastInDim S50000 ![] bcast_S_S50000 (constant (F := Ideal) S_ .f32 0x3F800000#32))
        (maximumf deg (broadcastInDim S50000 ![] bcast_S_S50000 (constant (F := Ideal) S_ .f32 0x3F800000#32)))) (ix2 r 0)
    = Ideal.div 1 (max (deg (ix1 r)) 1) := by
  refine (broadcastInDim_apply _ bcast_S50000_S50000x1_0 _ (ix2 r 0) (ix1 r) (fun a => match a with
    | ⟨0, _⟩ => by show r.val = if (50000 : Nat) = 1 then 0 else r.val; rw [if_neg (by decide)])).trans ?_
  rw [hostDivf_apply, maximumf_apply, ones_apply]

end Cert.KernelIdeal.HostFacts

end
-- ==== Proof.DstNonneg.lean ====
/-
  What the proof uses of the integer input dst (argument 2, one word per edge): every word is at least 0 read as
  a signed number, and therefore the index normalisation "where dst < 0 take dst + 50000, else dst" is dst.

  The first fact is the last conjunct of the precondition: the precondition is a conjunction, word by word, of
  "all" tests, each a reduction by "and" from 1 over a whole array down to a single word; a conjunction that is 1
  has both sides 1, and a reduction by "and" over a whole array that is 1 met a 1 at every index. The array reduced
  in the last conjunct is the signed comparison dst ≥ 0, the 0 being a rank-0 constant spread over the edges.

  The second fact is index by index: the spread constant reads the constant; a word that is ≥ 0 signed is not
  < 0 signed, so the condition bit is 0, and a selection on a 0 bit takes its second branch.
-/
import proofs.«132324_j12936441496234_2_alg».proof.Pre_finite_inputs
import proofs.«132324_j12936441496234_2_alg».proof.KernelIdeal
import proofs.«132324_j12936441496234_2_alg».proof.Proof.Spec
import Idealize.ShloMosaic.Lib.ReduceAll
import Idealize.ShloMosaic.Lib.ValueIdx

noncomputable section

namespace Cert.Gin.Dst

open Idealize.ShloMosaic Idealize.ShloMosaic.ValueIdx

variable {F : FTy → Type} [FloatOps F]

/-- A rank-0 array has one index. -/
instance subsingleton_scalar_idx : Subsingleton Cert.Pre_finite_inputs.S_.Idx :=
  ⟨fun a b => funext fun d => d.elim0⟩

/-- A word that is ≥ 0 signed is not < 0 signed: the "less than" bit is 0. -/
theorem slt_zero_of_sge (x : BitVec 32) (h : IntOp.cmpi .sge x 0#32 = 1#1) : IntOp.cmpi .slt x 0#32 = 0#1 := by
  apply eq_zero_of_ne_one
  intro hlt
  have h1 := IntOp.cmpi_sge.1 h
  have h2 := IntOp.cmpi_slt.1 hlt
  omega

/-- THE PRECONDITION DECODED at edge e: dst[e] ≥ 0, signed. -/
theorem dst_nonneg [Cert.Pre_finite_inputs.Facts] (a0 : FVec F Cert.Pre_finite_inputs.S50000x128 .f32) (a1 a2 : IVec Cert.Pre_finite_inputs.S800000 32)
    (a3 : FVec F Cert.Pre_finite_inputs.S128x128 .f32) (a4 : FVec F Cert.Pre_finite_inputs.S128 .f32)
    (a5 : FVec F Cert.Pre_finite_inputs.S128x128 .f32) (a6 : FVec F Cert.Pre_finite_inputs.S128 .f32)
    (a7 : FVec F Cert.Pre_finite_inputs.S128x40 .f32) (a8 : FVec F Cert.Pre_finite_inputs.S40 .f32)
    (h : Cert.Pre_finite_inputs.fn (F := F) a0 a1 a2 a3 a4 a5 a6 a7 a8 = (fun _ => 1#1))
    (e : Cert.Pre_finite_inputs.S800000.Idx) : IntOp.cmpi .sge (a2 e) 0#32 = 1#1 := by
  have h0 := congrFun h ix0
  dsimp only [Cert.Pre_finite_inputs.fn, Cert.Pre_finite_inputs.fn_part1, Cert.Pre_finite_inputs.fn_part2] at h0
  -- the outermost "and": its right side is the reduction over the comparison dst ≥ 0
  have h1 := (IntOp.andi_eq_one.1 h0).2
  exact Host.reduce_andi_all _ _ _ _ _ h1 e

/-- The index normalisation of a dst that is ≥ 0 everywhere is dst. -/
theorem normalise_eq [Cert.KernelIdeal.Facts] (a2 : IVec Cert.KernelIdeal.S800000 32) (hge : ∀ e, IntOp.cmpi .sge (a2 e) 0#32 = 1#1) :
    select (cmpi .slt a2 (broadcastInDim Cert.KernelIdeal.S800000 ![] Cert.KernelIdeal.Facts₀.bcast_S_S800000 (constantI Cert.KernelIdeal.S_ 32 0#32)))
           (addi a2 (broadcastInDim Cert.KernelIdeal.S800000 ![] Cert.KernelIdeal.Facts₀.bcast_S_S800000 (constantI Cert.KernelIdeal.S_ 32 50000#32))) a2 = a2 := by
  funext e
  refine (select_apply _ _ _ e).trans ?_
  have hc : cmpi .slt a2 (broadcastInDim Cert.KernelIdeal.S800000 ![] Cert.KernelIdeal.Facts₀.bcast_S_S800000 (constantI Cert.KernelIdeal.S_ 32 0#32)) e = 0#1 :=
    slt_zero_of_sge (a2 e) (hge e)
  rw [hc]
  exact select_zero _ _

end Cert.Gin.Dst

end
-- ==== Proof.Bridge.lean ====
/-
  The two whole-array functions are one.

  The kernel program adds every edge's source row onto the destination row of the features themselves, after
  shifting a negative destination up by the node count; the reference accumulates onto zeros at the destination as
  given and adds the features afterwards.  With every destination index at least zero the shift does nothing, and
  accumulating onto an array is that array plus accumulating onto zeros.  The kernel's bias is the bias vector re-laid
  as one row; read at (0, q) it is the vector at q.  The kernel multiplies the neighbour sums by one over the larger
  of the in-degree and one, the reference divides by it; that number is at least one, so not zero, and off zero a
  quotient is the product with the reciprocal.
-/
import proofs.«132324_j12936441496234_2_alg».proof.Proof.Whole
import proofs.«132324_j12936441496234_2_alg».proof.Proof.RefWhole
import proofs.«132324_j12936441496234_2_alg».proof.Proof.HostFacts
import proofs.«132324_j12936441496234_2_alg».proof.Proof.DstNonneg

set_option maxRecDepth 16384

noncomputable section

namespace Cert.Bridge

open Idealize.ShloMosaic Idealize.ShloMosaic.TcCoe Idealize.ShloMosaic.ValueIdx Idealize.SL.Sem

/-! ## The two programs' host operations are the same functions -/

theorem neighbourSum_same (h : FVec Ideal Cert.KernelIdeal.S50000x128 .f32) (s d : IVec Cert.KernelIdeal.S800000 32) :
    Cert.ReferenceIdeal.Whole.neighbourSum h s d = Cert.KernelIdeal.HostRead.neighbourSum (F := Ideal) h s d := rfl

theorem inDegree_same (d : IVec Cert.KernelIdeal.S800000 32) :
    Cert.ReferenceIdeal.Whole.inDegree d = Cert.KernelIdeal.HostRead.inDegree (F := Ideal) d := rfl

/-! ## The kernel program's host operations, rewritten -/

section Kernel
open Cert.KernelIdeal Cert.KernelIdeal.Gen Cert.KernelIdeal.HostRead

/-- With no destination below zero, adding the gathered rows onto the features is the features plus the
    neighbour sums. -/
theorem selfSummed_eq (d : IVec S800000 32) (hge : ∀ e, IntOp.cmpi .sge (d e) 0#32 = 1#1)
    (h : FVec Ideal S50000x128 .f32) (s : IVec S800000 32) :
    selfSummed (F := Ideal) h s d = addf h (neighbourSum (F := Ideal) h s d) := by
  have hd : shifted d = d := Cert.Gin.Dst.normalise_eq d hge
  unfold selfSummed neighbourSum
  rw [hd]
  exact Cert.KernelIdeal.HostFacts.scatter_onto h (column d) (gathered h s)

theorem bias128_eq (b : FVec Ideal S128 .f32) :
    (fun q : Fin 128 => shapeCast S1x128 b shapeCasts_S128_S1x128 (ix2 0 q)) = fun q => b (ix1 q) :=
  funext fun q => Cert.KernelIdeal.HostFacts.bias_row128 b q

theorem bias40_eq (b : FVec Ideal S40 .f32) :
    (fun q : Fin 40 => shapeCast S1x40 b shapeCasts_S40_S1x40 (ix2 0 q)) = fun q => b (ix1 q) :=
  funext fun q => Cert.KernelIdeal.HostFacts.bias_row40 b q

theorem factor_eq (d : IVec S800000 32) :
    (fun r : Fin 50000 => invDegree (F := Ideal) d (ix2 r 0)) = fun r => Ideal.div 1 (max (inDegree (F := Ideal) d (ix1 r)) 1) :=
  funext fun r => Cert.KernelIdeal.HostFacts.inv_degree_at (inDegree (F := Ideal) d) r

end Kernel

/-! ## The results agree -/

theorem outputs_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hge : ∀ e, IntOp.cmpi .sge (m ((c.tc : Thread Cert.KernelIdeal.nD Cert.KernelIdeal.τ).loc Cert.KernelIdeal.main_arg2) e) 0#32 = 1#1)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    Cert.ReferenceIdeal.Whole.output m' c = Cert.KernelIdeal.Whole.output m c := by
  unfold Cert.ReferenceIdeal.Whole.output Cert.ReferenceIdeal.Whole.hidden2 Cert.ReferenceIdeal.Whole.hidden1
  unfold Cert.KernelIdeal.Whole.output Cert.KernelIdeal.Whole.hidden2 Cert.KernelIdeal.Whole.hidden1
  rw [h0, h1, h2, h3, h4, h5, h6, h7, h8]
  simp only [selfSummed_eq _ hge, bias128_eq, bias40_eq, factor_eq, neighbourSum_same, inDegree_same]

end Cert.Bridge

end
-- ==== Proof.lean ====
/-
  Three graph layers — gather each edge's source row, add it onto the destination row, then an affine map of
  every row — computed once by a program that runs its three affine maps as grids of ten row blocks and once by
  plain array operations, agree entry by entry over the extended reals, when every float input is finite and no
  destination index is below zero.

  The road.  Both programs terminate without a fault and leave their arguments as launched (the three frames).
  The block program's result array is read off its run as one function of the arguments (`Proof/Whole.lean`:
  each grid's ten row bands are the bands of one whole-array function, `Proof/Dense0.lean` … `Dense2.lean`, whose
  entries are the body's arithmetic, `Proof/Payload.lean`; the host operations between the grids are read in
  `Proof/HostRead.lean`).  The array program's result is its composed term, recognised layer by layer as the same
  specification (`Proof/RefLayer.lean`, `Proof/RefWhole.lean`).  The two functions differ in three spellings only
  (`Proof/Bridge.lean`): the block program adds the gathered rows onto the features directly, after shifting a
  negative destination up by the node count — no shift happens when no destination is negative
  (`Proof/DstNonneg.lean`), and adding onto an array is the array plus adding onto zeros; its bias is a one-row
  matrix; and it multiplies by the reciprocal of a number that is at least one where the other program divides
  (`Proof/HostFacts.lean`).  Finiteness of the float inputs is never used: sums and products on the extended reals
  are re-associated nowhere.
-/
import proofs.«132324_j12936441496234_2_alg».proof.Defs
import proofs.«132324_j12936441496234_2_alg».proof.Proof.Gen.Kernel
import proofs.«132324_j12936441496234_2_alg».proof.Proof.Gen.Kernel.Skeleton
import proofs.«132324_j12936441496234_2_alg».proof.Proof.Gen.Kernel.Launch
import proofs.«132324_j12936441496234_2_alg».proof.Proof.Gen.Kernel.Points
import proofs.«132324_j12936441496234_2_alg».proof.Proof.Gen.Kernel.Frame
import proofs.«132324_j12936441496234_2_alg».proof.Proof.Gen.KernelIdeal
import proofs.«132324_j12936441496234_2_alg».proof.Proof.Gen.KernelIdeal.Skeleton
import proofs.«132324_j12936441496234_2_alg».proof.Proof.Gen.KernelIdeal.Launch
import proofs.«132324_j12936441496234_2_alg».proof.Proof.Gen.KernelIdeal.Points
import proofs.«132324_j12936441496234_2_alg».proof.Proof.Gen.KernelIdeal.Frame
import proofs.«132324_j12936441496234_2_alg».proof.Proof.Gen.ReferenceIdeal
import proofs.«132324_j12936441496234_2_alg».proof.Proof.Gen.Pre_finite_inputs
import proofs.«132324_j12936441496234_2_alg».proof.Proof.Gen.ReferenceIdeal.Run
import proofs.«132324_j12936441496234_2_alg».proof.Proof.RunOut
import proofs.«132324_j12936441496234_2_alg».proof.Proof.Whole
import proofs.«132324_j12936441496234_2_alg».proof.Proof.RefWhole
import proofs.«132324_j12936441496234_2_alg».proof.Proof.Bridge
import proofs.«132324_j12936441496234_2_alg».proof.Proof.DstNonneg
import Idealize.ShloMosaic.Adequacy
import Idealize.ShloMosaic.Init

noncomputable section

namespace Cert.Proof

open Idealize.ShloMosaic Idealize.SL.Sem

/-- The word-level program runs and leaves its arguments as launched. -/
theorem frame_kernel : Cert.frame_Kernel := fun m ρ _ => Cert.Kernel.Gen.frame m ρ

/-- So does the idealized block program. -/
theorem frame_kernel_ideal : Cert.frame_KernelIdeal := fun m ρ _ => Cert.KernelIdeal.Gen.frame m ρ

/-- The array program's run, with its result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end with the same result array: the block program's is `Whole.output` of its
    arguments, the array program's is `RefWhole.output` of its own, and these agree on agreeing arguments with no
    negative destination index. -/
theorem algebraic : Cert.algebraic_KernelIdeal_ReferenceIdeal := by
  intro m ρ m' ρ' hpre hagree
  refine ⟨fun c => Cert.KernelIdeal.Whole.output m c, ?_, ?_⟩
  · exact (θ_run Cert.KernelIdeal.defs _ _).mono
      (fun r h c => ⟨(h c).1.trans (Cert.KernelIdeal.Whole.result_eq m ρ c), (h c).2⟩)
      (Cert.KernelIdeal.RunOut.run m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Whole.result_eq]
    exact Cert.Bridge.outputs_agree m m' c
      (fun e => Cert.Gin.Dst.dst_nonneg _ _ _ _ _ _ _ _ _ (hpre c) e)
      (hagree c).1 (hagree c).2.1 (hagree c).2.2.1 (hagree c).2.2.2.1 (hagree c).2.2.2.2.1 (hagree c).2.2.2.2.2.1
      (hagree c).2.2.2.2.2.2.1 (hagree c).2.2.2.2.2.2.2.1 (hagree c).2.2.2.2.2.2.2.2

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
